-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x3x448x448 : Shape := ⟨5, ![32, 4, 3, 448, 448]⟩
abbrev S_ : Shape := ⟨0, ![]⟩

class Facts : Prop where
  bcast_S_S32x4x3x448x448 : S_.BroadcastsInDim S32x4x3x448x448 (![] : Fin 0 → Fin S32x4x3x448x448.rank)
  reducesTo_S32x4x3x448x448_S_d0_1_2_3_4 : S32x4x3x448x448.ReducesTo [0, 1, 2, 3, 4] S_
  h_S_ : 0 < S_.numel

variable [Facts]

def fn {F : FTy → Type} [FloatOps F] (main_arg0 : FVec F S32x4x3x448x448 .f32) : IVec S_ 1 :=
  let main_v0 : FVec F S32x4x3x448x448 .f32 := Host.absf main_arg0
  let main_cst : FVec F S_ .f32 := constant S_ .f32 0x7F800000#32
  let main_v1 : FVec F S32x4x3x448x448 .f32 := broadcastInDim S32x4x3x448x448 ![] bcast_S_S32x4x3x448x448 main_cst
  let main_v2 : IVec S32x4x3x448x448 1 := cmpf .olt main_v0 main_v1
  let main_c : IVec S_ 1 := constantI S_ 1 1#1
  let main_v3 : IVec S_ 1 := (fun x v => Host.reduce IntOp.andi x v reducesTo_S32x4x3x448x448_S_d0_1_2_3_4 h_S_) main_v2 main_c
  main_v3
-- ==== Kernel.lean ====
abbrev S32x4x3x448x448 : Shape := ⟨5, ![32, 4, 3, 448, 448]⟩
abbrev S32x4x3x28x16x28x16 : Shape := ⟨7, ![32, 4, 3, 28, 16, 28, 16]⟩
abbrev S32x4x28x28x768 : Shape := ⟨5, ![32, 4, 28, 28, 768]⟩
abbrev S1x1x3x28x16x28x16 : Shape := ⟨7, ![1, 1, 3, 28, 16, 28, 16]⟩
abbrev S1x1x28x28x768 : Shape := ⟨5, ![1, 1, 28, 28, 768]⟩
abbrev S1x1x1x28x1x28x16 : Shape := ⟨7, ![1, 1, 1, 28, 1, 28, 16]⟩
abbrev S28x28x16 : Shape := ⟨3, ![28, 28, 16]⟩
abbrev S1x1x28x28x16 : Shape := ⟨5, ![1, 1, 28, 28, 16]⟩
abbrev S32x3136x768 : Shape := ⟨3, ![32, 3136, 768]⟩
abbrev S3136 : Shape := ⟨1, ![3136]⟩
abbrev S_ : Shape := ⟨0, ![]⟩
abbrev S3136x1 : Shape := ⟨2, ![3136, 1]⟩
abbrev S3136x3 : Shape := ⟨2, ![3136, 3]⟩
abbrev S1x3136x3 : Shape := ⟨3, ![1, 3136, 3]⟩
abbrev S32x3136x3 : Shape := ⟨3, ![32, 3136, 3]⟩
abbrev S32x3136 : Shape := ⟨2, ![32, 3136]⟩

abbrev nBuf : Space → Nat
  | .hbm => 93
  | .vmem => 4
  | .smem => 0
  | _ => 0

abbrev bufTy : (tb : Table) → Fin (tcTables nBuf tb) → BufTy
  | .hbm, ⟨0, _⟩ => ⟨S32x4x3x448x448, .f32⟩
  | .hbm, ⟨1, _⟩ => ⟨S32x4x3x28x16x28x16, .f32⟩
  | .hbm, ⟨2, _⟩ => ⟨S32x4x28x28x768, .f32⟩
  | .hbm, ⟨3, _⟩ => ⟨S32x3136x768, .f32⟩
  | .hbm, ⟨4, _⟩ => ⟨S3136, .i32⟩
  | .hbm, ⟨5, _⟩ => ⟨S_, .i32⟩
  | .hbm, ⟨6, _⟩ => ⟨S_, .i32⟩
  | .hbm, ⟨7, _⟩ => ⟨S3136, .i32⟩
  | .hbm, ⟨8, _⟩ => ⟨S3136, .i32⟩
  | .hbm, ⟨9, _⟩ => ⟨S3136, .i32⟩
  | .hbm, ⟨10, _⟩ => ⟨S_, .i32⟩
  | .hbm, ⟨11, _⟩ => ⟨S3136, .i32⟩
  | .hbm, ⟨12, _⟩ => ⟨S3136, .i1⟩
  | .hbm, ⟨13, _⟩ => ⟨S3136, .i32⟩
  | .hbm, ⟨14, _⟩ => ⟨S3136, .i32⟩
  | .hbm, ⟨15, _⟩ => ⟨S_, .i32⟩
  | .hbm, ⟨16, _⟩ => ⟨S3136, .i32⟩
  | .hbm, ⟨17, _⟩ => ⟨S3136, .i1⟩
  | .hbm, ⟨18, _⟩ => ⟨S3136, .i1⟩
  | .hbm, ⟨19, _⟩ => ⟨S_, .i32⟩
  | .hbm, ⟨20, _⟩ => ⟨S3136, .i32⟩
  | .hbm, ⟨21, _⟩ => ⟨S3136, .i32⟩
  | .hbm, ⟨22, _⟩ => ⟨S3136, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S3136, .i32⟩
  | .hbm, ⟨30, _⟩ => ⟨S3136, .i32⟩
  | .hbm, ⟨31, _⟩ => ⟨S_, .i32⟩
  | .hbm, ⟨32, _⟩ => ⟨S3136, .i32⟩
  | .hbm, ⟨33, _⟩ => ⟨S3136, .i1⟩
  | .hbm, ⟨34, _⟩ => ⟨S_, .i32⟩
  | .hbm, ⟨35, _⟩ => ⟨S3136, .i32⟩
  | .hbm, ⟨36, _⟩ => ⟨S3136, .i1⟩
  | .hbm, ⟨37, _⟩ => ⟨S_, .i32⟩
  | .hbm, ⟨38, _⟩ => ⟨S_, .i1⟩
  | .hbm, ⟨39, _⟩ => ⟨S3136, .i1⟩
  | .hbm, ⟨40, _⟩ => ⟨S3136, .i1⟩
  | .hbm, ⟨41, _⟩ => ⟨S3136, .i1⟩
  | .hbm, ⟨42, _⟩ => ⟨S3136, .i32⟩
  | .hbm, ⟨43, _⟩ => ⟨S3136, .i32⟩
  | .hbm, ⟨44, _⟩ => ⟨S3136, .i32⟩
  | .hbm, ⟨45, _⟩ => ⟨S_, .i32⟩
  | .hbm, ⟨46, _⟩ => ⟨S_, .i32⟩
  | .hbm, ⟨47, _⟩ => ⟨S3136, .i32⟩
  | .hbm, ⟨48, _⟩ => ⟨S3136, .i32⟩
  | .hbm, ⟨49, _⟩ => ⟨S3136, .i32⟩
  | .hbm, ⟨50, _⟩ => ⟨S_, .i32⟩
  | .hbm, ⟨51, _⟩ => ⟨S3136, .i32⟩
  | .hbm, ⟨52, _⟩ => ⟨S3136, .i1⟩
  | .hbm, ⟨53, _⟩ => ⟨S3136, .i32⟩
  | .hbm, ⟨54, _⟩ => ⟨S3136, .i32⟩
  | .hbm, ⟨55, _⟩ => ⟨S_, .i32⟩
  | .hbm, ⟨56, _⟩ => ⟨S3136, .i32⟩
  | .hbm, ⟨57, _⟩ => ⟨S3136, .i1⟩
  | .hbm, ⟨58, _⟩ => ⟨S3136, .i1⟩
  | .hbm, ⟨59, _⟩ => ⟨S_, .i32⟩
  | .hbm, ⟨60, _⟩ => ⟨S3136, .i32⟩
  | .hbm, ⟨61, _⟩ => ⟨S3136, .i32⟩
  | .hbm, ⟨62, _⟩ => ⟨S3136, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S3136, .i32⟩
  | .hbm, ⟨70, _⟩ => ⟨S3136, .i32⟩
  | .hbm, ⟨71, _⟩ => ⟨S_, .i32⟩
  | .hbm, ⟨72, _⟩ => ⟨S3136, .i32⟩
  | .hbm, ⟨73, _⟩ => ⟨S3136, .i1⟩
  | .hbm, ⟨74, _⟩ => ⟨S_, .i32⟩
  | .hbm, ⟨75, _⟩ => ⟨S3136, .i32⟩
  | .hbm, ⟨76, _⟩ => ⟨S3136, .i1⟩
  | .hbm, ⟨77, _⟩ => ⟨S_, .i32⟩
  | .hbm, ⟨78, _⟩ => ⟨S_, .i1⟩
  | .hbm, ⟨79, _⟩ => ⟨S3136, .i1⟩
  | .hbm, ⟨80, _⟩ => ⟨S3136, .i1⟩
  | .hbm, ⟨81, _⟩ => ⟨S3136, .i1⟩
  | .hbm, ⟨82, _⟩ => ⟨S3136, .i32⟩
  | .hbm, ⟨83, _⟩ => ⟨S3136, .i32⟩
  | .hbm, ⟨84, _⟩ => ⟨S3136, .i32⟩
  | .hbm, ⟨85, _⟩ => ⟨S3136x1, .i32⟩
  | .hbm, ⟨86, _⟩ => ⟨S3136x1, .i32⟩
  | .hbm, ⟨87, _⟩ => ⟨S3136x1, .i32⟩
  | .hbm, ⟨88, _⟩ => ⟨S3136x3, .i32⟩
  | .hbm, ⟨89, _⟩ => ⟨S1x3136x3, .i32⟩
  | .hbm, ⟨90, _⟩ => ⟨S32x3136x3, .i32⟩
  | .hbm, ⟨91, _⟩ => ⟨S_, .f32⟩
  | .hbm, ⟨92, _⟩ => ⟨S32x3136, .f32⟩
  | .local _ .vmem, ⟨0, _⟩ => ⟨S1x1x3x28x16x28x16, .f32⟩
  | .local _ .vmem, ⟨1, _⟩ => ⟨S1x1x3x28x16x28x16, .f32⟩
  | .local _ .vmem, ⟨2, _⟩ => ⟨S1x1x28x28x768, .f32⟩
  | .local _ .vmem, ⟨3, _⟩ => ⟨S1x1x28x28x768, .f32⟩
  | _, _ => ⟨S32x4x3x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v5 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v6 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_cst : Ref sig .tc := ⟨.hbm, 91, rfl⟩
abbrev main_v14 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 7 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, arg1.toNat, c0_i32.toNat, c0_i32_0.toNat, c0_i32_1.toNat, c0_i32_2.toNat, c0_i32_3.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x3x28x16x28x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x28x28x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S32x4x3x448x448_S32x4x3x28x16x28x16 : S32x4x3x448x448.ShapeCasts S32x4x3x28x16x28x16
  inb_S1x1x3x28x16x28x16_S1x1x1x28x1x28x16_0_0_0_0_0_0_0 : ∀ a, (![0, 0, 0, 0, 0, 0, 0] : Fin 7 → Nat) a + S1x1x1x28x1x28x16.size a ≤ S1x1x3x28x16x28x16.size a
  h_S1x1x1x28x1x28x16 : 0 < S1x1x1x28x1x28x16.numel
  shapeCasts_S1x1x1x28x1x28x16_S28x28x16 : S1x1x1x28x1x28x16.ShapeCasts S28x28x16
  inb_S1x1x28x28x768_S1x1x28x28x16_0_0_0_0_0 : ∀ a, (![0, 0, 0, 0, 0] : Fin 5 → Nat) a + S1x1x28x28x16.size a ≤ S1x1x28x28x768.size a
  h_S1x1x28x28x16 : 0 < S1x1x28x28x16.numel
  shapeCasts_S1x1x28x28x16_S28x28x16 : S1x1x28x28x16.ShapeCasts S28x28x16
  shapeCasts_S28x28x16_S1x1x28x28x16 : S28x28x16.ShapeCasts S1x1x28x28x16
  inb_S1x1x3x28x16x28x16_S1x1x1x28x1x28x16_0_0_0_0_1_0_0 : ∀ a, (![0, 0, 0, 0, 1, 0, 0] : Fin 7 → Nat) a + S1x1x1x28x1x28x16.size a ≤ S1x1x3x28x16x28x16.size a
  inb_S1x1x28x28x768_S1x1x28x28x16_0_0_0_0_16 : ∀ a, (![0, 0, 0, 0, 16] : Fin 5 → Nat) a + S1x1x28x28x16.size a ≤ S1x1x28x28x768.size a
  inb_S1x1x3x28x16x28x16_S1x1x1x28x1x28x16_0_0_0_0_2_0_0 : ∀ a, (![0, 0, 0, 0, 2, 0, 0] : Fin 7 → Nat) a + S1x1x1x28x1x28x16.size a ≤ S1x1x3x28x16x28x16.size a
  inb_S1x1x28x28x768_S1x1x28x28x16_0_0_0_0_32 : ∀ a, (![0, 0, 0, 0, 32] : Fin 5 → Nat) a + S1x1x28x28x16.size a ≤ S1x1x28x28x768.size a
  inb_S1x1x3x28x16x28x16_S1x1x1x28x1x28x16_0_0_0_0_3_0_0 : ∀ a, (![0, 0, 0, 0, 3, 0, 0] : Fin 7 → Nat) a + S1x1x1x28x1x28x16.size a ≤ S1x1x3x28x16x28x16.size a
  inb_S1x1x28x28x768_S1x1x28x28x16_0_0_0_0_48 : ∀ a, (![0, 0, 0, 0, 48] : Fin 5 → Nat) a + S1x1x28x28x16.size a ≤ S1x1x28x28x768.size a
  inb_S1x1x3x28x16x28x16_S1x1x1x28x1x28x16_0_0_0_0_4_0_0 : ∀ a, (![0, 0, 0, 0, 4, 0, 0] : Fin 7 → Nat) a + S1x1x1x28x1x28x16.size a ≤ S1x1x3x28x16x28x16.size a
  inb_S1x1x28x28x768_S1x1x28x28x16_0_0_0_0_64 : ∀ a, (![0, 0, 0, 0, 64] : Fin 5 → Nat) a + S1x1x28x28x16.size a ≤ S1x1x28x28x768.size a
  inb_S1x1x3x28x16x28x16_S1x1x1x28x1x28x16_0_0_0_0_5_0_0 : ∀ a, (![0, 0, 0, 0, 5, 0, 0] : Fin 7 → Nat) a + S1x1x1x28x1x28x16.size a ≤ S1x1x3x28x16x28x16.size a
  inb_S1x1x28x28x768_S1x1x28x28x16_0_0_0_0_80 : ∀ a, (![0, 0, 0, 0, 80] : Fin 5 → Nat) a + S1x1x28x28x16.size a ≤ S1x1x28x28x768.size a
  inb_S1x1x3x28x16x28x16_S1x1x1x28x1x28x16_0_0_0_0_6_0_0 : ∀ a, (![0, 0, 0, 0, 6, 0, 0] : Fin 7 → Nat) a + S1x1x1x28x1x28x16.size a ≤ S1x1x3x28x16x28x16.size a
  inb_S1x1x28x28x768_S1x1x28x28x16_0_0_0_0_96 : ∀ a, (![0, 0, 0, 0, 96] : Fin 5 → Nat) a + S1x1x28x28x16.size a ≤ S1x1x28x28x768.size a
  inb_S1x1x3x28x16x28x16_S1x1x1x28x1x28x16_0_0_0_0_7_0_0 : ∀ a, (![0, 0, 0, 0, 7, 0, 0] : Fin 7 → Nat) a + S1x1x1x28x1x28x16.size a ≤ S1x1x3x28x16x28x16.size a
  inb_S1x1x28x28x768_S1x1x28x28x16_0_0_0_0_112 : ∀ a, (![0, 0, 0, 0, 112] : Fin 5 → Nat) a + S1x1x28x28x16.size a ≤ S1x1x28x28x768.size a
  inb_S1x1x3x28x16x28x16_S1x1x1x28x1x28x16_0_0_0_0_8_0_0 : ∀ a, (![0, 0, 0, 0, 8, 0, 0] : Fin 7 → Nat) a + S1x1x1x28x1x28x16.size a ≤ S1x1x3x28x16x28x16.size a
  inb_S1x1x28x28x768_S1x1x28x28x16_0_0_0_0_128 : ∀ a, (![0, 0, 0, 0, 128] : Fin 5 → Nat) a + S1x1x28x28x16.size a ≤ S1x1x28x28x768.size a
  inb_S1x1x3x28x16x28x16_S1x1x1x28x1x28x16_0_0_0_0_9_0_0 : ∀ a, (![0, 0, 0, 0, 9, 0, 0] : Fin 7 → Nat) a + S1x1x1x28x1x28x16.size a ≤ S1x1x3x28x16x28x16.size a
  inb_S1x1x28x28x768_S1x1x28x28x16_0_0_0_0_144 : ∀ a, (![0, 0, 0, 0, 144] : Fin 5 → Nat) a + S1x1x28x28x16.size a ≤ S1x1x28x28x768.size a
  inb_S1x1x3x28x16x28x16_S1x1x1x28x1x28x16_0_0_0_0_10_0_0 : ∀ a, (![0, 0, 0, 0, 10, 0, 0] : Fin 7 → Nat) a + S1x1x1x28x1x28x16.size a ≤ S1x1x3x28x16x28x16.size a
  inb_S1x1x28x28x768_S1x1x28x28x16_0_0_0_0_160 : ∀ a, (![0, 0, 0, 0, 160] : Fin 5 → Nat) a + S1x1x28x28x16.size a ≤ S1x1x28x28x768.size a
  inb_S1x1x3x28x16x28x16_S1x1x1x28x1x28x16_0_0_0_0_11_0_0 : ∀ a, (![0, 0, 0, 0, 11, 0, 0] : Fin 7 → Nat) a + S1x1x1x28x1x28x16.size a ≤ S1x1x3x28x16x28x16.size a
  inb_S1x1x28x28x768_S1x1x28x28x16_0_0_0_0_176 : ∀ a, (![0, 0, 0, 0, 176] : Fin 5 → Nat) a + S1x1x28x28x16.size a ≤ S1x1x28x28x768.size a
  inb_S1x1x3x28x16x28x16_S1x1x1x28x1x28x16_0_0_0_0_12_0_0 : ∀ a, (![0, 0, 0, 0, 12, 0, 0] : Fin 7 → Nat) a + S1x1x1x28x1x28x16.size a ≤ S1x1x3x28x16x28x16.size a
  inb_S1x1x28x28x768_S1x1x28x28x16_0_0_0_0_192 : ∀ a, (![0, 0, 0, 0, 192] : Fin 5 → Nat) a + S1x1x28x28x16.size a ≤ S1x1x28x28x768.size a
  inb_S1x1x3x28x16x28x16_S1x1x1x28x1x28x16_0_0_0_0_13_0_0 : ∀ a, (![0, 0, 0, 0, 13, 0, 0] : Fin 7 → Nat) a + S1x1x1x28x1x28x16.size a ≤ S1x1x3x28x16x28x16.size a
  inb_S1x1x28x28x768_S1x1x28x28x16_0_0_0_0_208 : ∀ a, (![0, 0, 0, 0, 208] : Fin 5 → Nat) a + S1x1x28x28x16.size a ≤ S1x1x28x28x768.size a
  inb_S1x1x3x28x16x28x16_S1x1x1x28x1x28x16_0_0_0_0_14_0_0 : ∀ a, (![0, 0, 0, 0, 14, 0, 0] : Fin 7 → Nat) a + S1x1x1x28x1x28x16.size a ≤ S1x1x3x28x16x28x16.size a
  inb_S1x1x28x28x768_S1x1x28x28x16_0_0_0_0_224 : ∀ a, (![0, 0, 0, 0, 224] : Fin 5 → Nat) a + S1x1x28x28x16.size a ≤ S1x1x28x28x768.size a
  inb_S1x1x3x28x16x28x16_S1x1x1x28x1x28x16_0_0_0_0_15_0_0 : ∀ a, (![0, 0, 0, 0, 15, 0, 0] : Fin 7 → Nat) a + S1x1x1x28x1x28x16.size a ≤ S1x1x3x28x16x28x16.size a
  inb_S1x1x28x28x768_S1x1x28x28x16_0_0_0_0_240 : ∀ a, (![0, 0, 0, 0, 240] : Fin 5 → Nat) a + S1x1x28x28x16.size a ≤ S1x1x28x28x768.size a
  inb_S1x1x3x28x16x28x16_S1x1x1x28x1x28x16_0_0_1_0_0_0_0 : ∀ a, (![0, 0, 1, 0, 0, 0, 0] : Fin 7 → Nat) a + S1x1x1x28x1x28x16.size a ≤ S1x1x3x28x16x28x16.size a
  inb_S1x1x28x28x768_S1x1x28x28x16_0_0_0_0_256 : ∀ a, (![0, 0, 0, 0, 256] : Fin 5 → Nat) a + S1x1x28x28x16.size a ≤ S1x1x28x28x768.size a
  inb_S1x1x3x28x16x28x16_S1x1x1x28x1x28x16_0_0_1_0_1_0_0 : ∀ a, (![0, 0, 1, 0, 1, 0, 0] : Fin 7 → Nat) a + S1x1x1x28x1x28x16.size a ≤ S1x1x3x28x16x28x16.size a
  inb_S1x1x28x28x768_S1x1x28x28x16_0_0_0_0_272 : ∀ a, (![0, 0, 0, 0, 272] : Fin 5 → Nat) a + S1x1x28x28x16.size a ≤ S1x1x28x28x768.size a
  inb_S1x1x3x28x16x28x16_S1x1x1x28x1x28x16_0_0_1_0_2_0_0 : ∀ a, (![0, 0, 1, 0, 2, 0, 0] : Fin 7 → Nat) a + S1x1x1x28x1x28x16.size a ≤ S1x1x3x28x16x28x16.size a
  inb_S1x1x28x28x768_S1x1x28x28x16_0_0_0_0_288 : ∀ a, (![0, 0, 0, 0, 288] : Fin 5 → Nat) a + S1x1x28x28x16.size a ≤ S1x1x28x28x768.size a
  inb_S1x1x3x28x16x28x16_S1x1x1x28x1x28x16_0_0_1_0_3_0_0 : ∀ a, (![0, 0, 1, 0, 3, 0, 0] : Fin 7 → Nat) a + S1x1x1x28x1x28x16.size a ≤ S1x1x3x28x16x28x16.size a
  inb_S1x1x28x28x768_S1x1x28x28x16_0_0_0_0_304 : ∀ a, (![0, 0, 0, 0, 304] : Fin 5 → Nat) a + S1x1x28x28x16.size a ≤ S1x1x28x28x768.size a
  inb_S1x1x3x28x16x28x16_S1x1x1x28x1x28x16_0_0_1_0_4_0_0 : ∀ a, (![0, 0, 1, 0, 4, 0, 0] : Fin 7 → Nat) a + S1x1x1x28x1x28x16.size a ≤ S1x1x3x28x16x28x16.size a
  inb_S1x1x28x28x768_S1x1x28x28x16_0_0_0_0_320 : ∀ a, (![0, 0, 0, 0, 320] : Fin 5 → Nat) a + S1x1x28x28x16.size a ≤ S1x1x28x28x768.size a
  inb_S1x1x3x28x16x28x16_S1x1x1x28x1x28x16_0_0_1_0_5_0_0 : ∀ a, (![0, 0, 1, 0, 5, 0, 0] : Fin 7 → Nat) a + S1x1x1x28x1x28x16.size a ≤ S1x1x3x28x16x28x16.size a
  inb_S1x1x28x28x768_S1x1x28x28x16_0_0_0_0_336 : ∀ a, (![0, 0, 0, 0, 336] : Fin 5 → Nat) a + S1x1x28x28x16.size a ≤ S1x1x28x28x768.size a
  inb_S1x1x3x28x16x28x16_S1x1x1x28x1x28x16_0_0_1_0_6_0_0 : ∀ a, (![0, 0, 1, 0, 6, 0, 0] : Fin 7 → Nat) a + S1x1x1x28x1x28x16.size a ≤ S1x1x3x28x16x28x16.size a
  inb_S1x1x28x28x768_S1x1x28x28x16_0_0_0_0_352 : ∀ a, (![0, 0, 0, 0, 352] : Fin 5 → Nat) a + S1x1x28x28x16.size a ≤ S1x1x28x28x768.size a
  inb_S1x1x3x28x16x28x16_S1x1x1x28x1x28x16_0_0_1_0_7_0_0 : ∀ a, (![0, 0, 1, 0, 7, 0, 0] : Fin 7 → Nat) a + S1x1x1x28x1x28x16.size a ≤ S1x1x3x28x16x28x16.size a
  inb_S1x1x28x28x768_S1x1x28x28x16_0_0_0_0_368 : ∀ a, (![0, 0, 0, 0, 368] : Fin 5 → Nat) a + S1x1x28x28x16.size a ≤ S1x1x28x28x768.size a
  inb_S1x1x3x28x16x28x16_S1x1x1x28x1x28x16_0_0_1_0_8_0_0 : ∀ a, (![0, 0, 1, 0, 8, 0, 0] : Fin 7 → Nat) a + S1x1x1x28x1x28x16.size a ≤ S1x1x3x28x16x28x16.size a
  inb_S1x1x28x28x768_S1x1x28x28x16_0_0_0_0_384 : ∀ a, (![0, 0, 0, 0, 384] : Fin 5 → Nat) a + S1x1x28x28x16.size a ≤ S1x1x28x28x768.size a
  inb_S1x1x3x28x16x28x16_S1x1x1x28x1x28x16_0_0_1_0_9_0_0 : ∀ a, (![0, 0, 1, 0, 9, 0, 0] : Fin 7 → Nat) a + S1x1x1x28x1x28x16.size a ≤ S1x1x3x28x16x28x16.size a
  inb_S1x1x28x28x768_S1x1x28x28x16_0_0_0_0_400 : ∀ a, (![0, 0, 0, 0, 400] : Fin 5 → Nat) a + S1x1x28x28x16.size a ≤ S1x1x28x28x768.size a
  inb_S1x1x3x28x16x28x16_S1x1x1x28x1x28x16_0_0_1_0_10_0_0 : ∀ a, (![0, 0, 1, 0, 10, 0, 0] : Fin 7 → Nat) a + S1x1x1x28x1x28x16.size a ≤ S1x1x3x28x16x28x16.size a
  inb_S1x1x28x28x768_S1x1x28x28x16_0_0_0_0_416 : ∀ a, (![0, 0, 0, 0, 416] : Fin 5 → Nat) a + S1x1x28x28x16.size a ≤ S1x1x28x28x768.size a
  inb_S1x1x3x28x16x28x16_S1x1x1x28x1x28x16_0_0_1_0_11_0_0 : ∀ a, (![0, 0, 1, 0, 11, 0, 0] : Fin 7 → Nat) a + S1x1x1x28x1x28x16.size a ≤ S1x1x3x28x16x28x16.size a
  inb_S1x1x28x28x768_S1x1x28x28x16_0_0_0_0_432 : ∀ a, (![0, 0, 0, 0, 432] : Fin 5 → Nat) a + S1x1x28x28x16.size a ≤ S1x1x28x28x768.size a
  inb_S1x1x3x28x16x28x16_S1x1x1x28x1x28x16_0_0_1_0_12_0_0 : ∀ a, (![0, 0, 1, 0, 12, 0, 0] : Fin 7 → Nat) a + S1x1x1x28x1x28x16.size a ≤ S1x1x3x28x16x28x16.size a
  inb_S1x1x28x28x768_S1x1x28x28x16_0_0_0_0_448 : ∀ a, (![0, 0, 0, 0, 448] : Fin 5 → Nat) a + S1x1x28x28x16.size a ≤ S1x1x28x28x768.size a
  inb_S1x1x3x28x16x28x16_S1x1x1x28x1x28x16_0_0_1_0_13_0_0 : ∀ a, (![0, 0, 1, 0, 13, 0, 0] : Fin 7 → Nat) a + S1x1x1x28x1x28x16.size a ≤ S1x1x3x28x16x28x16.size a
  inb_S1x1x28x28x768_S1x1x28x28x16_0_0_0_0_464 : ∀ a, (![0, 0, 0, 0, 464] : Fin 5 → Nat) a + S1x1x28x28x16.size a ≤ S1x1x28x28x768.size a
  inb_S1x1x3x28x16x28x16_S1x1x1x28x1x28x16_0_0_1_0_14_0_0 : ∀ a, (![0, 0, 1, 0, 14, 0, 0] : Fin 7 → Nat) a + S1x1x1x28x1x28x16.size a ≤ S1x1x3x28x16x28x16.size a
  inb_S1x1x28x28x768_S1x1x28x28x16_0_0_0_0_480 : ∀ a, (![0, 0, 0, 0, 480] : Fin 5 → Nat) a + S1x1x28x28x16.size a ≤ S1x1x28x28x768.size a
  inb_S1x1x3x28x16x28x16_S1x1x1x28x1x28x16_0_0_1_0_15_0_0 : ∀ a, (![0, 0, 1, 0, 15, 0, 0] : Fin 7 → Nat) a + S1x1x1x28x1x28x16.size a ≤ S1x1x3x28x16x28x16.size a
  inb_S1x1x28x28x768_S1x1x28x28x16_0_0_0_0_496 : ∀ a, (![0, 0, 0, 0, 496] : Fin 5 → Nat) a + S1x1x28x28x16.size a ≤ S1x1x28x28x768.size a
  inb_S1x1x3x28x16x28x16_S1x1x1x28x1x28x16_0_0_2_0_0_0_0 : ∀ a, (![0, 0, 2, 0, 0, 0, 0] : Fin 7 → Nat) a + S1x1x1x28x1x28x16.size a ≤ S1x1x3x28x16x28x16.size a
  inb_S1x1x28x28x768_S1x1x28x28x16_0_0_0_0_512 : ∀ a, (![0, 0, 0, 0, 512] : Fin 5 → Nat) a + S1x1x28x28x16.size a ≤ S1x1x28x28x768.size a
  inb_S1x1x3x28x16x28x16_S1x1x1x28x1x28x16_0_0_2_0_1_0_0 : ∀ a, (![0, 0, 2, 0, 1, 0, 0] : Fin 7 → Nat) a + S1x1x1x28x1x28x16.size a ≤ S1x1x3x28x16x28x16.size a
  inb_S1x1x28x28x768_S1x1x28x28x16_0_0_0_0_528 : ∀ a, (![0, 0, 0, 0, 528] : Fin 5 → Nat) a + S1x1x28x28x16.size a ≤ S1x1x28x28x768.size a
  inb_S1x1x3x28x16x28x16_S1x1x1x28x1x28x16_0_0_2_0_2_0_0 : ∀ a, (![0, 0, 2, 0, 2, 0, 0] : Fin 7 → Nat) a + S1x1x1x28x1x28x16.size a ≤ S1x1x3x28x16x28x16.size a
  inb_S1x1x28x28x768_S1x1x28x28x16_0_0_0_0_544 : ∀ a, (![0, 0, 0, 0, 544] : Fin 5 → Nat) a + S1x1x28x28x16.size a ≤ S1x1x28x28x768.size a
  inb_S1x1x3x28x16x28x16_S1x1x1x28x1x28x16_0_0_2_0_3_0_0 : ∀ a, (![0, 0, 2, 0, 3, 0, 0] : Fin 7 → Nat) a + S1x1x1x28x1x28x16.size a ≤ S1x1x3x28x16x28x16.size a
  inb_S1x1x28x28x768_S1x1x28x28x16_0_0_0_0_560 : ∀ a, (![0, 0, 0, 0, 560] : Fin 5 → Nat) a + S1x1x28x28x16.size a ≤ S1x1x28x28x768.size a
  inb_S1x1x3x28x16x28x16_S1x1x1x28x1x28x16_0_0_2_0_4_0_0 : ∀ a, (![0, 0, 2, 0, 4, 0, 0] : Fin 7 → Nat) a + S1x1x1x28x1x28x16.size a ≤ S1x1x3x28x16x28x16.size a
  inb_S1x1x28x28x768_S1x1x28x28x16_0_0_0_0_576 : ∀ a, (![0, 0, 0, 0, 576] : Fin 5 → Nat) a + S1x1x28x28x16.size a ≤ S1x1x28x28x768.size a
  inb_S1x1x3x28x16x28x16_S1x1x1x28x1x28x16_0_0_2_0_5_0_0 : ∀ a, (![0, 0, 2, 0, 5, 0, 0] : Fin 7 → Nat) a + S1x1x1x28x1x28x16.size a ≤ S1x1x3x28x16x28x16.size a
  inb_S1x1x28x28x768_S1x1x28x28x16_0_0_0_0_592 : ∀ a, (![0, 0, 0, 0, 592] : Fin 5 → Nat) a + S1x1x28x28x16.size a ≤ S1x1x28x28x768.size a
  inb_S1x1x3x28x16x28x16_S1x1x1x28x1x28x16_0_0_2_0_6_0_0 : ∀ a, (![0, 0, 2, 0, 6, 0, 0] : Fin 7 → Nat) a + S1x1x1x28x1x28x16.size a ≤ S1x1x3x28x16x28x16.size a
  inb_S1x1x28x28x768_S1x1x28x28x16_0_0_0_0_608 : ∀ a, (![0, 0, 0, 0, 608] : Fin 5 → Nat) a + S1x1x28x28x16.size a ≤ S1x1x28x28x768.size a
  inb_S1x1x3x28x16x28x16_S1x1x1x28x1x28x16_0_0_2_0_7_0_0 : ∀ a, (![0, 0, 2, 0, 7, 0, 0] : Fin 7 → Nat) a + S1x1x1x28x1x28x16.size a ≤ S1x1x3x28x16x28x16.size a
  inb_S1x1x28x28x768_S1x1x28x28x16_0_0_0_0_624 : ∀ a, (![0, 0, 0, 0, 624] : Fin 5 → Nat) a + S1x1x28x28x16.size a ≤ S1x1x28x28x768.size a
  inb_S1x1x3x28x16x28x16_S1x1x1x28x1x28x16_0_0_2_0_8_0_0 : ∀ a, (![0, 0, 2, 0, 8, 0, 0] : Fin 7 → Nat) a + S1x1x1x28x1x28x16.size a ≤ S1x1x3x28x16x28x16.size a
  inb_S1x1x28x28x768_S1x1x28x28x16_0_0_0_0_640 : ∀ a, (![0, 0, 0, 0, 640] : Fin 5 → Nat) a + S1x1x28x28x16.size a ≤ S1x1x28x28x768.size a
  inb_S1x1x3x28x16x28x16_S1x1x1x28x1x28x16_0_0_2_0_9_0_0 : ∀ a, (![0, 0, 2, 0, 9, 0, 0] : Fin 7 → Nat) a + S1x1x1x28x1x28x16.size a ≤ S1x1x3x28x16x28x16.size a
  inb_S1x1x28x28x768_S1x1x28x28x16_0_0_0_0_656 : ∀ a, (![0, 0, 0, 0, 656] : Fin 5 → Nat) a + S1x1x28x28x16.size a ≤ S1x1x28x28x768.size a
  inb_S1x1x3x28x16x28x16_S1x1x1x28x1x28x16_0_0_2_0_10_0_0 : ∀ a, (![0, 0, 2, 0, 10, 0, 0] : Fin 7 → Nat) a + S1x1x1x28x1x28x16.size a ≤ S1x1x3x28x16x28x16.size a
  inb_S1x1x28x28x768_S1x1x28x28x16_0_0_0_0_672 : ∀ a, (![0, 0, 0, 0, 672] : Fin 5 → Nat) a + S1x1x28x28x16.size a ≤ S1x1x28x28x768.size a
  inb_S1x1x3x28x16x28x16_S1x1x1x28x1x28x16_0_0_2_0_11_0_0 : ∀ a, (![0, 0, 2, 0, 11, 0, 0] : Fin 7 → Nat) a + S1x1x1x28x1x28x16.size a ≤ S1x1x3x28x16x28x16.size a
  inb_S1x1x28x28x768_S1x1x28x28x16_0_0_0_0_688 : ∀ a, (![0, 0, 0, 0, 688] : Fin 5 → Nat) a + S1x1x28x28x16.size a ≤ S1x1x28x28x768.size a
  inb_S1x1x3x28x16x28x16_S1x1x1x28x1x28x16_0_0_2_0_12_0_0 : ∀ a, (![0, 0, 2, 0, 12, 0, 0] : Fin 7 → Nat) a + S1x1x1x28x1x28x16.size a ≤ S1x1x3x28x16x28x16.size a
  inb_S1x1x28x28x768_S1x1x28x28x16_0_0_0_0_704 : ∀ a, (![0, 0, 0, 0, 704] : Fin 5 → Nat) a + S1x1x28x28x16.size a ≤ S1x1x28x28x768.size a
  inb_S1x1x3x28x16x28x16_S1x1x1x28x1x28x16_0_0_2_0_13_0_0 : ∀ a, (![0, 0, 2, 0, 13, 0, 0] : Fin 7 → Nat) a + S1x1x1x28x1x28x16.size a ≤ S1x1x3x28x16x28x16.size a
  inb_S1x1x28x28x768_S1x1x28x28x16_0_0_0_0_720 : ∀ a, (![0, 0, 0, 0, 720] : Fin 5 → Nat) a + S1x1x28x28x16.size a ≤ S1x1x28x28x768.size a
  inb_S1x1x3x28x16x28x16_S1x1x1x28x1x28x16_0_0_2_0_14_0_0 : ∀ a, (![0, 0, 2, 0, 14, 0, 0] : Fin 7 → Nat) a + S1x1x1x28x1x28x16.size a ≤ S1x1x3x28x16x28x16.size a
  inb_S1x1x28x28x768_S1x1x28x28x16_0_0_0_0_736 : ∀ a, (![0, 0, 0, 0, 736] : Fin 5 → Nat) a + S1x1x28x28x16.size a ≤ S1x1x28x28x768.size a
  inb_S1x1x3x28x16x28x16_S1x1x1x28x1x28x16_0_0_2_0_15_0_0 : ∀ a, (![0, 0, 2, 0, 15, 0, 0] : Fin 7 → Nat) a + S1x1x1x28x1x28x16.size a ≤ S1x1x3x28x16x28x16.size a
  inb_S1x1x28x28x768_S1x1x28x28x16_0_0_0_0_752 : ∀ a, (![0, 0, 0, 0, 752] : Fin 5 → Nat) a + S1x1x28x28x16.size a ≤ S1x1x28x28x768.size a
  shapeCasts_S32x4x28x28x768_S32x3136x768 : S32x4x28x28x768.ShapeCasts S32x3136x768
  bcast_S_S3136 : S_.BroadcastsInDim S3136 (![] : Fin 0 → Fin S3136.rank)
  bcast_S3136_S3136x1_0 : S3136.BroadcastsInDim S3136x1 (![0] : Fin 1 → Fin S3136x1.rank)
  concatenates_S3136x1_S3136x1_S3136x1_S3136x3_d1 : Shape.Concatenates [S3136x1, S3136x1, S3136x1] S3136x3 1
  bcast_S3136x3_S1x3136x3_1_2 : S3136x3.BroadcastsInDim S1x3136x3 (![1, 2] : Fin 2 → Fin S1x3136x3.rank)
  bcast_S1x3136x3_S32x3136x3_0_1_2 : S1x3136x3.BroadcastsInDim S32x3136x3 (![0, 1, 2] : Fin 3 → Fin S32x3136x3.rank)
  bcast_S_S32x3136 : S_.BroadcastsInDim S32x3136 (![] : Fin 0 → Fin S32x3136.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3x28x16x28x16.size a ≤ S32x4x3x28x16x28x16.size a
  hwx0_0 : ∀ i : grid0.Coords, EltTy.bits .f32 = 32 ∨ (Rect.block (s := S32x4x3x28x16x28x16) S1x1x3x28x16x28x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x28x28x768.size a ≤ S32x4x28x28x768.size a
  hwx0_1 : ∀ i : grid0.Coords, EltTy.bits .f32 = 32 ∨ (Rect.block (s := S32x4x28x28x768) S1x1x28x28x768.size (cc0_transform_1 i) (hinb0_1 i)).WholeWords (EltTy.packing .f32)

variable [Facts₀]

abbrev win0_0 : Pipeline.Window sig grid0 :=
  Pipeline.Window.ofSpec (Memref.whole main_v0) S1x1x3x28x16x28x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x28x28x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4x3x448x448 : Shape := ⟨5, ![32, 4, 3, 448, 448]⟩
abbrev S32x4x3x28x16x28x16 : Shape := ⟨7, ![32, 4, 3, 28, 16, 28, 16]⟩
abbrev S32x4x28x28x3x16x16 : Shape := ⟨7, ![32, 4, 28, 28, 3, 16, 16]⟩
abbrev S32x3136x768 : Shape := ⟨3, ![32, 3136, 768]⟩
abbrev S3136 : Shape := ⟨1, ![3136]⟩
abbrev S_ : Shape := ⟨0, ![]⟩
abbrev S3136x1 : Shape := ⟨2, ![3136, 1]⟩
abbrev S3136x3 : Shape := ⟨2, ![3136, 3]⟩
abbrev S1x3136x3 : Shape := ⟨3, ![1, 3136, 3]⟩
abbrev S32x3136x3 : Shape := ⟨3, ![32, 3136, 3]⟩
abbrev S32x3136 : Shape := ⟨2, ![32, 3136]⟩

abbrev nBuf : Space → Nat
  | .hbm => 93
  | .vmem => 0
  | .smem => 0
  | _ => 0

abbrev bufTy : (tb : Table) → Fin (tcTables nBuf tb) → BufTy
  | .hbm, ⟨0, _⟩ => ⟨S32x4x3x448x448, .f32⟩
  | .hbm, ⟨1, _⟩ => ⟨S32x4x3x28x16x28x16, .f32⟩
  | .hbm, ⟨2, _⟩ => ⟨S32x4x28x28x3x16x16, .f32⟩
  | .hbm, ⟨3, _⟩ => ⟨S32x3136x768, .f32⟩
  | .hbm, ⟨4, _⟩ => ⟨S3136, .i32⟩
  | .hbm, ⟨5, _⟩ => ⟨S_, .i32⟩
  | .hbm, ⟨6, _⟩ => ⟨S_, .i32⟩
  | .hbm, ⟨7, _⟩ => ⟨S3136, .i32⟩
  | .hbm, ⟨8, _⟩ => ⟨S3136, .i32⟩
  | .hbm, ⟨9, _⟩ => ⟨S3136, .i32⟩
  | .hbm, ⟨10, _⟩ => ⟨S_, .i32⟩
  | .hbm, ⟨11, _⟩ => ⟨S3136, .i32⟩
  | .hbm, ⟨12, _⟩ => ⟨S3136, .i1⟩
  | .hbm, ⟨13, _⟩ => ⟨S3136, .i32⟩
  | .hbm, ⟨14, _⟩ => ⟨S3136, .i32⟩
  | .hbm, ⟨15, _⟩ => ⟨S_, .i32⟩
  | .hbm, ⟨16, _⟩ => ⟨S3136, .i32⟩
  | .hbm, ⟨17, _⟩ => ⟨S3136, .i1⟩
  | .hbm, ⟨18, _⟩ => ⟨S3136, .i1⟩
  | .hbm, ⟨19, _⟩ => ⟨S_, .i32⟩
  | .hbm, ⟨20, _⟩ => ⟨S3136, .i32⟩
  | .hbm, ⟨21, _⟩ => ⟨S3136, .i32⟩
  | .hbm, ⟨22, _⟩ => ⟨S3136, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S3136, .i32⟩
  | .hbm, ⟨30, _⟩ => ⟨S3136, .i32⟩
  | .hbm, ⟨31, _⟩ => ⟨S_, .i32⟩
  | .hbm, ⟨32, _⟩ => ⟨S3136, .i32⟩
  | .hbm, ⟨33, _⟩ => ⟨S3136, .i1⟩
  | .hbm, ⟨34, _⟩ => ⟨S_, .i32⟩
  | .hbm, ⟨35, _⟩ => ⟨S3136, .i32⟩
  | .hbm, ⟨36, _⟩ => ⟨S3136, .i1⟩
  | .hbm, ⟨37, _⟩ => ⟨S_, .i32⟩
  | .hbm, ⟨38, _⟩ => ⟨S_, .i1⟩
  | .hbm, ⟨39, _⟩ => ⟨S3136, .i1⟩
  | .hbm, ⟨40, _⟩ => ⟨S3136, .i1⟩
  | .hbm, ⟨41, _⟩ => ⟨S3136, .i1⟩
  | .hbm, ⟨42, _⟩ => ⟨S3136, .i32⟩
  | .hbm, ⟨43, _⟩ => ⟨S3136, .i32⟩
  | .hbm, ⟨44, _⟩ => ⟨S3136, .i32⟩
  | .hbm, ⟨45, _⟩ => ⟨S_, .i32⟩
  | .hbm, ⟨46, _⟩ => ⟨S_, .i32⟩
  | .hbm, ⟨47, _⟩ => ⟨S3136, .i32⟩
  | .hbm, ⟨48, _⟩ => ⟨S3136, .i32⟩
  | .hbm, ⟨49, _⟩ => ⟨S3136, .i32⟩
  | .hbm, ⟨50, _⟩ => ⟨S_, .i32⟩
  | .hbm, ⟨51, _⟩ => ⟨S3136, .i32⟩
  | .hbm, ⟨52, _⟩ => ⟨S3136, .i1⟩
  | .hbm, ⟨53, _⟩ => ⟨S3136, .i32⟩
  | .hbm, ⟨54, _⟩ => ⟨S3136, .i32⟩
  | .hbm, ⟨55, _⟩ => ⟨S_, .i32⟩
  | .hbm, ⟨56, _⟩ => ⟨S3136, .i32⟩
  | .hbm, ⟨57, _⟩ => ⟨S3136, .i1⟩
  | .hbm, ⟨58, _⟩ => ⟨S3136, .i1⟩
  | .hbm, ⟨59, _⟩ => ⟨S_, .i32⟩
  | .hbm, ⟨60, _⟩ => ⟨S3136, .i32⟩
  | .hbm, ⟨61, _⟩ => ⟨S3136, .i32⟩
  | .hbm, ⟨62, _⟩ => ⟨S3136, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S3136, .i32⟩
  | .hbm, ⟨70, _⟩ => ⟨S3136, .i32⟩
  | .hbm, ⟨71, _⟩ => ⟨S_, .i32⟩
  | .hbm, ⟨72, _⟩ => ⟨S3136, .i32⟩
  | .hbm, ⟨73, _⟩ => ⟨S3136, .i1⟩
  | .hbm, ⟨74, _⟩ => ⟨S_, .i32⟩
  | .hbm, ⟨75, _⟩ => ⟨S3136, .i32⟩
  | .hbm, ⟨76, _⟩ => ⟨S3136, .i1⟩
  | .hbm, ⟨77, _⟩ => ⟨S_, .i32⟩
  | .hbm, ⟨78, _⟩ => ⟨S_, .i1⟩
  | .hbm, ⟨79, _⟩ => ⟨S3136, .i1⟩
  | .hbm, ⟨80, _⟩ => ⟨S3136, .i1⟩
  | .hbm, ⟨81, _⟩ => ⟨S3136, .i1⟩
  | .hbm, ⟨82, _⟩ => ⟨S3136, .i32⟩
  | .hbm, ⟨83, _⟩ => ⟨S3136, .i32⟩
  | .hbm, ⟨84, _⟩ => ⟨S3136, .i32⟩
  | .hbm, ⟨85, _⟩ => ⟨S3136x1, .i32⟩
  | .hbm, ⟨86, _⟩ => ⟨S3136x1, .i32⟩
  | .hbm, ⟨87, _⟩ => ⟨S3136x1, .i32⟩
  | .hbm, ⟨88, _⟩ => ⟨S3136x3, .i32⟩
  | .hbm, ⟨89, _⟩ => ⟨S1x3136x3, .i32⟩
  | .hbm, ⟨90, _⟩ => ⟨S32x3136x3, .i32⟩
  | .hbm, ⟨91, _⟩ => ⟨S_, .f32⟩
  | .hbm, ⟨92, _⟩ => ⟨S32x3136, .f32⟩
  | _, _ => ⟨S32x4x3x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v5 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v6 : Ref sig .tc := ⟨.hbm, 62, rfl⟩
abbrev main_c_2 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_v5 : Ref sig .tc := ⟨.hbm, 72, rfl⟩
abbrev main_call3_v6 : Ref sig .tc := ⟨.hbm, 73, rfl⟩
abbrev main_call3_c_2 : Ref sig .tc := ⟨.hbm, 74, rfl⟩
abbrev main_call3_v7 : Ref sig .tc := ⟨.hbm, 75, rfl⟩
abbrev main_call3_v8 : Ref sig .tc := ⟨.hbm, 76, rfl⟩
abbrev main_call3_c_3 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_cst : Ref sig .tc := ⟨.hbm, 91, rfl⟩
abbrev main_v14 : Ref sig .tc := ⟨.hbm, 92, rfl⟩

abbrev nD : Nat := 1
abbrev τ : Topo := Topo.v7x

variable {F : FTy → Type} [FloatOps F]

class Facts₀ : Prop where
  shapeCasts_S32x4x3x448x448_S32x4x3x28x16x28x16 : S32x4x3x448x448.ShapeCasts S32x4x3x28x16x28x16
  transposes_S32x4x3x28x16x28x16_S32x4x28x28x3x16x16_0_1_3_5_2_4_6 : S32x4x3x28x16x28x16.Transposes [0, 1, 3, 5, 2, 4, 6] S32x4x28x28x3x16x16
  shapeCasts_S32x4x28x28x3x16x16_S32x3136x768 : S32x4x28x28x3x16x16.ShapeCasts S32x3136x768
  bcast_S_S3136 : S_.BroadcastsInDim S3136 (![] : Fin 0 → Fin S3136.rank)
  bcast_S3136_S3136x1_0 : S3136.BroadcastsInDim S3136x1 (![0] : Fin 1 → Fin S3136x1.rank)
  concatenates_S3136x1_S3136x1_S3136x1_S3136x3_d1 : Shape.Concatenates [S3136x1, S3136x1, S3136x1] S3136x3 1
  bcast_S3136x3_S1x3136x3_1_2 : S3136x3.BroadcastsInDim S1x3136x3 (![1, 2] : Fin 2 → Fin S1x3136x3.rank)
  bcast_S1x3136x3_S32x3136x3_0_1_2 : S1x3136x3.BroadcastsInDim S32x3136x3 (![0, 1, 2] : Fin 3 → Fin S32x3136x3.rank)
  bcast_S_S32x3136 : S_.BroadcastsInDim S32x3136 (![] : Fin 0 → Fin S32x3136.rank)

variable [Facts₀]

class Facts : Prop extends Facts₀ where

variable [Facts]
-- ==== Proof.WRun.lean ====
/-
  The body of the patch-extraction kernel, run once on whole staging buffers.

  At one grid point the body copies, for each channel ch < 3 and each row-in-patch pr < 16, the slab
  (ch, :, pr, :, :) of the input block (28 x 28 x 16 numbers) into the columns [(ch*16+pr)*16, (ch*16+pr)*16+16)
  of the output block: 48 loads from the input buffer and 48 stores into the output buffer (each store preceded
  by a load of the same output columns, whose value is never used). The run below holds the input buffer at
  its contents throughout and leaves the output buffer with the 48 stored pieces written over whatever it held;
  the list of pieces is the witness the run itself produces.
-/
import proofs.«169261_j75084618268853_2_alg».proof.Proof.Gen.Kernel.Launch
import proofs.«169261_j75084618268853_2_alg».proof.Proof.Gen.Kernel.Skeleton
import proofs.«169261_j75084618268853_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's 48 stores leave in the output block's buffer (last store first), with the proof that on
    whole staging buffers — the input's at contents `x0`, the output's at anything — the body runs to its end
    holding the input's as it was and the output's with those pieces written. -/
noncomputable def kernelRun0 (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) :
    { L1 : List (View.Piece (Elt F) S1x1x28x28x768 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__patchify_kernel i arg2 harg2 arg3 harg3) K } := by
  refine ⟨?_, fun E K => ?run⟩
  case run =>
    simp only [cc0__patchify_kernel_eq_skeleton]; unfold cc0__patchify_kernel_skel
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; iexact H1

end Cert.Kernel.Fr

end
-- ==== Proof.WFrame.lean ====
/-
  The patch-extraction program's run: the host reshape before the kernel's region, the region, and the ninety host
  operations after it.

  The region's grid has 32 x 4 points, one per (batch, frame). At point t the input window's block is the whole
  (3, 28, 16, 28, 16) pixel block of that batch and frame and the output window's block the whole (28, 28, 768) patch
  block; both windows are fetched / written back at every point, and distinct points have distinct blocks. The body
  leaves in the output buffer the pieces its 48 stores wrote, which tile the block, so the buffer's contents after the
  body are a function of the input block alone. The host operations after the region read the patch array and
  write only buffers of their own, so the argument array ends as it was launched.
-/
import proofs.«169261_j75084618268853_2_alg».proof.Proof.WRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the one reshape before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main reduces to the region continued by the later host operations, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block's buffer -/

/-- One staging buffer of the output window, through which its contents are stated (the choice does not matter). -/
abbrev VO : View sig .tc .vmem S1x1x28x28x768 .f32 := (Memref.whole cc0_stg1_0 : Memref sig .tc .vmem S1x1x28x28x768 .f32).view
abbrev ms0 (t : Fin cfg0.N) : Memref sig .tc .vmem S1x1x3x28x16x28x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x28x28x768 .f32 := win0_1.stage (cfg0.slots t 1)
abbrev hs1 (t : Fin cfg0.N) : (ms1 t).IsWhole := hstage0_1 ((cfg0.slots t 1).cast nbuf0_1)

/-- The body's 48 stored pieces tile the output block, so they cover it. -/
theorem cover0 (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) (y : S1x1x28x28x768.Idx) :
    ∃ pc ∈ (kernelRun0 c i arg2 harg2 arg3 harg3 x0).1, y ∈ pc.1.set :=
  View.cover_of_tiledL (kernelRun0 c i arg2 harg2 arg3 harg3 x0).1 S1x1x28x28x16.size (by sl_kernel_rfl) y

/-- What the body leaves in the output block's buffer: its pieces read back. -/
def out0 (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) : Vec F S1x1x28x28x768 .f32 :=
  VO.read (Elt F) (VO.writes (Elt F) VO.junk (kernelRun0 c i arg2 harg2 arg3 harg3 x0).1)

/-! ## The pipeline's proof data -/

/-- The proof data of the one pipeline on core `c`: the arrays as the region finds them; after the body at point `t`
    the input's buffer at its block and the output's at the body's pieces over that block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0 c (grid0.coords t) (ms0 t) (hs0 t) (ms1 t) (hs1 t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = out0 c (grid0.coords t) (ms0 t) (hs0 t) (ms1 t) (hs1 t) (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the run applies; the invariant and the core's
    debts pass through unread; the output's buffer ends with the pieces written, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold out0
  iintro ⟨HΦ, Ho, ⟨%d0, H0⟩, ⟨%d1, H1⟩⟩
  iapply ((kernelRun0 c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0 c _ _ _ _ _ _)

theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.WMain.lean ====
/-
  The patch-extraction program's run, launched: every weakly fair execution terminates, the two arrays of the
  region end at what the pipeline's proof data computes, and every other buffer at what the ninety host operations
  after the region leave. Those operations touch unscoped buffers only, allocate nothing, and each writes one
  buffer of its own — never the reshaped pixel array or the patch array the region's windows stage.
-/
import proofs.«169261_j75084618268853_2_alg».proof.Proof.WFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

/-- A stretch of operations in the list after the region is one of the nine. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 ∨ ops = hostOps1_4 ∨ ops = hostOps1_5
      ∨ ops = hostOps1_6 ∨ ops = hostOps1_7 ∨ ops = hostOps1_8 := by
  simpa only [tailOps, List.mem_cons, List.mem_nil_iff, or_false] using h

/-- They touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- They allocate nothing. -/
theorem sfx_fresh : ∀ ops ∈ (tailOps : List (List (HloOp τ sig (Elt F)))), ∀ op ∈ ops, op.fresh = ∅ := by
  intro ops hops op hop
  rcases mem_tailOps hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

theorem hostOps1_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  try casesm* _ ∨ _
  all_goals (subst hop; fin_cases w <;> exact fun h => StableHlo.devRef_ne_of_ne (by decide) (Finset.mem_singleton.mp h))
theorem hostOps1_1_keeps : ∀ op ∈ (hostOps1_1 : List (HloOp τ sig (Elt F))), ∀ w, Proc.devRef .tc (Pipeline.arrRef spec0 w) ∉ op.writes := by
  intro op hop w
  simp only [hostOps1_1, List.mem_cons, List.mem_nil_iff, or_false] at hop
  try casesm* _ ∨ _
  all_goals (subst hop; fin_cases w <;> exact fun h => StableHlo.devRef_ne_of_ne (by decide) (Finset.mem_singleton.mp h))
theorem hostOps1_2_keeps : ∀ op ∈ (hostOps1_2 : List (HloOp τ sig (Elt F))), ∀ w, Proc.devRef .tc (Pipeline.arrRef spec0 w) ∉ op.writes := by
  intro op hop w
  simp only [hostOps1_2, List.mem_cons, List.mem_nil_iff, or_false] at hop
  try casesm* _ ∨ _
  all_goals (subst hop; fin_cases w <;> exact fun h => StableHlo.devRef_ne_of_ne (by decide) (Finset.mem_singleton.mp h))
theorem hostOps1_3_keeps : ∀ op ∈ (hostOps1_3 : List (HloOp τ sig (Elt F))), ∀ w, Proc.devRef .tc (Pipeline.arrRef spec0 w) ∉ op.writes := by
  intro op hop w
  simp only [hostOps1_3, List.mem_cons, List.mem_nil_iff, or_false] at hop
  try casesm* _ ∨ _
  all_goals (subst hop; fin_cases w <;> exact fun h => StableHlo.devRef_ne_of_ne (by decide) (Finset.mem_singleton.mp h))
theorem hostOps1_4_keeps : ∀ op ∈ (hostOps1_4 : List (HloOp τ sig (Elt F))), ∀ w, Proc.devRef .tc (Pipeline.arrRef spec0 w) ∉ op.writes := by
  intro op hop w
  simp only [hostOps1_4, List.mem_cons, List.mem_nil_iff, or_false] at hop
  try casesm* _ ∨ _
  all_goals (subst hop; fin_cases w <;> exact fun h => StableHlo.devRef_ne_of_ne (by decide) (Finset.mem_singleton.mp h))
theorem hostOps1_5_keeps : ∀ op ∈ (hostOps1_5 : List (HloOp τ sig (Elt F))), ∀ w, Proc.devRef .tc (Pipeline.arrRef spec0 w) ∉ op.writes := by
  intro op hop w
  simp only [hostOps1_5, List.mem_cons, List.mem_nil_iff, or_false] at hop
  try casesm* _ ∨ _
  all_goals (subst hop; fin_cases w <;> exact fun h => StableHlo.devRef_ne_of_ne (by decide) (Finset.mem_singleton.mp h))
theorem hostOps1_6_keeps : ∀ op ∈ (hostOps1_6 : List (HloOp τ sig (Elt F))), ∀ w, Proc.devRef .tc (Pipeline.arrRef spec0 w) ∉ op.writes := by
  intro op hop w
  simp only [hostOps1_6, List.mem_cons, List.mem_nil_iff, or_false] at hop
  try casesm* _ ∨ _
  all_goals (subst hop; fin_cases w <;> exact fun h => StableHlo.devRef_ne_of_ne (by decide) (Finset.mem_singleton.mp h))
theorem hostOps1_7_keeps : ∀ op ∈ (hostOps1_7 : List (HloOp τ sig (Elt F))), ∀ w, Proc.devRef .tc (Pipeline.arrRef spec0 w) ∉ op.writes := by
  intro op hop w
  simp only [hostOps1_7, List.mem_cons, List.mem_nil_iff, or_false] at hop
  try casesm* _ ∨ _
  all_goals (subst hop; fin_cases w <;> exact fun h => StableHlo.devRef_ne_of_ne (by decide) (Finset.mem_singleton.mp h))
theorem hostOps1_8_keeps : ∀ op ∈ (hostOps1_8 : List (HloOp τ sig (Elt F))), ∀ w, Proc.devRef .tc (Pipeline.arrRef spec0 w) ∉ op.writes := by
  intro op hop w
  simp only [hostOps1_8, List.mem_cons, List.mem_nil_iff, or_false] at hop
  try casesm* _ ∨ _
  all_goals (subst hop; fin_cases w <;> exact fun h => StableHlo.devRef_ne_of_ne (by decide) (Finset.mem_singleton.mp h))

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  rcases mem_tailOps hops with rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop

/-! ## The run and the frame -/

set_option backward.isDefEq.respectTransparency.types false in
/-- Every weakly fair execution of @main terminates; in every final state each array of the pipeline holds what the
    proof data computes and every other unscoped buffer what the later operations leave. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Fr

end
-- ==== Proof.WArg.lean ====
/-
  The frame of the patch-extraction program: the argument array is staged by no window and written by no host
  operation — the one reshape before the region writes the reshaped copy, each of the ninety operations after it
  a buffer of its own — so it ends as it was launched.
-/
import proofs.«169261_j75084618268853_2_alg».proof.Proof.WMain

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

variable (m : (ℓ : Loc nD τ sig) → Buf (Elt F) ℓ) (ρ : Dev nD → PrngReg)

theorem hostOps1_arg : ∀ op ∈ (hostOps1 : List (HloOp τ sig (Elt F))), Proc.devRef .tc main_arg0 ∉ op.writes := by
  intro op hop
  simp only [hostOps1, List.mem_cons, List.mem_nil_iff, or_false] at hop
  try casesm* _ ∨ _
  all_goals (subst hop; exact fun h => StableHlo.devRef_ne_of_ne (by decide) (Finset.mem_singleton.mp h))
theorem hostOps1_1_arg : ∀ op ∈ (hostOps1_1 : List (HloOp τ sig (Elt F))), Proc.devRef .tc main_arg0 ∉ op.writes := by
  intro op hop
  simp only [hostOps1_1, List.mem_cons, List.mem_nil_iff, or_false] at hop
  try casesm* _ ∨ _
  all_goals (subst hop; exact fun h => StableHlo.devRef_ne_of_ne (by decide) (Finset.mem_singleton.mp h))
theorem hostOps1_2_arg : ∀ op ∈ (hostOps1_2 : List (HloOp τ sig (Elt F))), Proc.devRef .tc main_arg0 ∉ op.writes := by
  intro op hop
  simp only [hostOps1_2, List.mem_cons, List.mem_nil_iff, or_false] at hop
  try casesm* _ ∨ _
  all_goals (subst hop; exact fun h => StableHlo.devRef_ne_of_ne (by decide) (Finset.mem_singleton.mp h))
theorem hostOps1_3_arg : ∀ op ∈ (hostOps1_3 : List (HloOp τ sig (Elt F))), Proc.devRef .tc main_arg0 ∉ op.writes := by
  intro op hop
  simp only [hostOps1_3, List.mem_cons, List.mem_nil_iff, or_false] at hop
  try casesm* _ ∨ _
  all_goals (subst hop; exact fun h => StableHlo.devRef_ne_of_ne (by decide) (Finset.mem_singleton.mp h))
theorem hostOps1_4_arg : ∀ op ∈ (hostOps1_4 : List (HloOp τ sig (Elt F))), Proc.devRef .tc main_arg0 ∉ op.writes := by
  intro op hop
  simp only [hostOps1_4, List.mem_cons, List.mem_nil_iff, or_false] at hop
  try casesm* _ ∨ _
  all_goals (subst hop; exact fun h => StableHlo.devRef_ne_of_ne (by decide) (Finset.mem_singleton.mp h))
theorem hostOps1_5_arg : ∀ op ∈ (hostOps1_5 : List (HloOp τ sig (Elt F))), Proc.devRef .tc main_arg0 ∉ op.writes := by
  intro op hop
  simp only [hostOps1_5, List.mem_cons, List.mem_nil_iff, or_false] at hop
  try casesm* _ ∨ _
  all_goals (subst hop; exact fun h => StableHlo.devRef_ne_of_ne (by decide) (Finset.mem_singleton.mp h))
theorem hostOps1_6_arg : ∀ op ∈ (hostOps1_6 : List (HloOp τ sig (Elt F))), Proc.devRef .tc main_arg0 ∉ op.writes := by
  intro op hop
  simp only [hostOps1_6, List.mem_cons, List.mem_nil_iff, or_false] at hop
  try casesm* _ ∨ _
  all_goals (subst hop; exact fun h => StableHlo.devRef_ne_of_ne (by decide) (Finset.mem_singleton.mp h))
theorem hostOps1_7_arg : ∀ op ∈ (hostOps1_7 : List (HloOp τ sig (Elt F))), Proc.devRef .tc main_arg0 ∉ op.writes := by
  intro op hop
  simp only [hostOps1_7, List.mem_cons, List.mem_nil_iff, or_false] at hop
  try casesm* _ ∨ _
  all_goals (subst hop; exact fun h => StableHlo.devRef_ne_of_ne (by decide) (Finset.mem_singleton.mp h))
theorem hostOps1_8_arg : ∀ op ∈ (hostOps1_8 : List (HloOp τ sig (Elt F))), Proc.devRef .tc main_arg0 ∉ op.writes := by
  intro op hop
  simp only [hostOps1_8, List.mem_cons, List.mem_nil_iff, or_false] at hop
  try casesm* _ ∨ _
  all_goals (subst hop; exact fun h => StableHlo.devRef_ne_of_ne (by decide) (Finset.mem_singleton.mp h))

/-- No operation after the region writes the argument array. -/
theorem tail_keeps_arg0 : ∀ op ∈ (tailOps (F := F)).flatten, Proc.devRef .tc main_arg0 ∉ op.writes := by
  intro op hop
  obtain ⟨ops, hops, hop'⟩ := List.mem_flatten.mp hop
  rcases mem_tailOps hops with rfl | rfl | rfl | rfl | rfl | rfl | rfl | rfl | rfl
  · exact hostOps1_arg op hop'
  · exact hostOps1_1_arg op hop'
  · exact hostOps1_2_arg op hop'
  · exact hostOps1_3_arg op hop'
  · exact hostOps1_4_arg op hop'
  · exact hostOps1_5_arg op hop'
  · exact hostOps1_6_arg op hop'
  · exact hostOps1_7_arg op hop'
  · exact hostOps1_8_arg op hop'

theorem after_tail_arg0 (W : Valuation τ sig (Elt F)) :
    StableHlo.after (tailOps (F := F)).flatten W (Proc.devRef .tc main_arg0) = W (Proc.devRef .tc main_arg0) :=
  StableHlo.after_of_forall_not_mem _ W tail_keeps_arg0

/-- The region finds the argument array as launched: the reshape before it writes another buffer. -/
theorem V_main_arg0 (c : Dev nD) : V m c main_arg0 = m ((c : Thread nD τ).loc main_arg0) := by
  show StableHlo.after (List.flatten [hostOps0]) (fun b => m (c, b)) (Proc.devRef .tc main_arg0) = _
  refine (StableHlo.after_of_forall_not_mem _ _ ?_).trans rfl
  intro op hop
  simp only [List.flatten_cons, List.flatten_nil, List.append_nil, hostOps0, List.mem_cons, List.mem_nil_iff, or_false] at hop
  subst hop
  exact fun h => StableHlo.devRef_ne_of_ne (by decide) (Finset.mem_singleton.mp h)

/-- After the run the argument array is as launched. -/
theorem kept_arg0 (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) := by
  refine ((h c).2 main_arg0 (Pipeline.mem_restRefs_of main_arg0 (by decide) (by decide))).trans ?_
  unfold Pipeline.afterTail₀
  rw [after_tail_arg0, Pipeline.withArrays_of_ne spec0 c _ _ main_arg0 (fun w => by fin_cases w <;> decide)]
  exact V_main_arg0 m c

/-- THE FRAME: every weakly fair execution terminates without a fault and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

end Cert.Kernel.Fr

end
-- ==== Proof.KRun.lean ====
/-
  The body of the patch-extraction kernel, run once on whole staging buffers.

  At one grid point the body copies, for each channel ch < 3 and each row-in-patch pr < 16, the slab
  (ch, :, pr, :, :) of the input block (28 x 28 x 16 numbers) into the columns [(ch*16+pr)*16, (ch*16+pr)*16+16)
  of the output block: 48 loads from the input buffer and 48 stores into the output buffer (each store preceded
  by a load of the same output columns, whose value is never used). The run below holds the input buffer at
  its contents throughout and leaves the output buffer with the 48 stored pieces written over whatever it held;
  the list of pieces is the witness the run itself produces.
-/
import proofs.«169261_j75084618268853_2_alg».proof.Proof.Gen.KernelIdeal.Launch
import proofs.«169261_j75084618268853_2_alg».proof.Proof.Gen.KernelIdeal.Skeleton
import proofs.«169261_j75084618268853_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The pieces the body's 48 stores leave in the output block's buffer (last store first), with the proof that on
    whole staging buffers — the input's at contents `x0`, the output's at anything — the body runs to its end
    holding the input's as it was and the output's with those pieces written. -/
noncomputable def kernelRun0 (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) :
    { L1 : List (View.Piece (Elt F) S1x1x28x28x768 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__patchify_kernel i arg2 harg2 arg3 harg3) K } := by
  refine ⟨?_, fun E K => ?run⟩
  case run =>
    simp only [cc0__patchify_kernel_eq_skeleton]; unfold cc0__patchify_kernel_skel
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; iexact H1

end Cert.KernelIdeal.Fr

end
-- ==== Proof.KFrame.lean ====
/-
  The patch-extraction program's run: the host reshape before the kernel's region, the region, and the ninety host
  operations after it.

  The region's grid has 32 x 4 points, one per (batch, frame). At point t the input window's block is the whole
  (3, 28, 16, 28, 16) pixel block of that batch and frame and the output window's block the whole (28, 28, 768) patch
  block; both windows are fetched / written back at every point, and distinct points have distinct blocks. The body
  leaves in the output buffer the pieces its 48 stores wrote, which tile the block, so the buffer's contents after the
  body are a function of the input block alone. The host operations after the region read the patch array and
  write only buffers of their own, so the argument array ends as it was launched.
-/
import proofs.«169261_j75084618268853_2_alg».proof.Proof.KRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the one reshape before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main reduces to the region continued by the later host operations, entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block's buffer -/

/-- One staging buffer of the output window, through which its contents are stated (the choice does not matter). -/
abbrev VO : View sig .tc .vmem S1x1x28x28x768 .f32 := (Memref.whole cc0_stg1_0 : Memref sig .tc .vmem S1x1x28x28x768 .f32).view
abbrev ms0 (t : Fin cfg0.N) : Memref sig .tc .vmem S1x1x3x28x16x28x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x28x28x768 .f32 := win0_1.stage (cfg0.slots t 1)
abbrev hs1 (t : Fin cfg0.N) : (ms1 t).IsWhole := hstage0_1 ((cfg0.slots t 1).cast nbuf0_1)

/-- The body's 48 stored pieces tile the output block, so they cover it. -/
theorem cover0 (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) (y : S1x1x28x28x768.Idx) :
    ∃ pc ∈ (kernelRun0 c i arg2 harg2 arg3 harg3 x0).1, y ∈ pc.1.set :=
  View.cover_of_tiledL (kernelRun0 c i arg2 harg2 arg3 harg3 x0).1 S1x1x28x28x16.size (by sl_kernel_rfl) y

/-- What the body leaves in the output block's buffer: its pieces read back. -/
def out0 (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) : Vec F S1x1x28x28x768 .f32 :=
  VO.read (Elt F) (VO.writes (Elt F) VO.junk (kernelRun0 c i arg2 harg2 arg3 harg3 x0).1)

/-! ## The pipeline's proof data -/

/-- The proof data of the one pipeline on core `c`: the arrays as the region finds them; after the body at point `t`
    the input's buffer at its block and the output's at the body's pieces over that block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0 c (grid0.coords t) (ms0 t) (hs0 t) (ms1 t) (hs1 t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = out0 c (grid0.coords t) (ms0 t) (hs0 t) (ms1 t) (hs1 t) (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the run applies; the invariant and the core's
    debts pass through unread; the output's buffer ends with the pieces written, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  unfold out0
  iintro ⟨HΦ, Ho, ⟨%d0, H0⟩, ⟨%d1, H1⟩⟩
  iapply ((kernelRun0 c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0 c _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KMain.lean ====
/-
  The patch-extraction program's run, launched: every weakly fair execution terminates, the two arrays of the
  region end at what the pipeline's proof data computes, and every other buffer at what the ninety host operations
  after the region leave. Those operations touch unscoped buffers only, allocate nothing, and each writes one
  buffer of its own — never the reshaped pixel array or the patch array the region's windows stage.
-/
import proofs.«169261_j75084618268853_2_alg».proof.Proof.KFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region -/

/-- A stretch of operations in the list after the region is one of the nine. -/
theorem mem_tailOps {ops : List (HloOp τ sig (Elt F))} (h : ops ∈ (tailOps : List (List (HloOp τ sig (Elt F))))) :
    ops = hostOps1 ∨ ops = hostOps1_1 ∨ ops = hostOps1_2 ∨ ops = hostOps1_3 ∨ ops = hostOps1_4 ∨ ops = hostOps1_5
      ∨ ops = hostOps1_6 ∨ ops = hostOps1_7 ∨ ops = hostOps1_8 := by
  simpa only [tailOps, List.mem_cons, List.mem_nil_iff, or_false] using h

/-- They touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- They allocate nothing. -/
theorem sfx_fresh : ∀ ops ∈ (tailOps : List (List (HloOp τ sig (Elt F)))), ∀ op ∈ ops, op.fresh = ∅ := by
  intro ops hops op hop
  rcases mem_tailOps hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

theorem hostOps1_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  try casesm* _ ∨ _
  all_goals (subst hop; fin_cases w <;> exact fun h => StableHlo.devRef_ne_of_ne (by decide) (Finset.mem_singleton.mp h))
theorem hostOps1_1_keeps : ∀ op ∈ (hostOps1_1 : List (HloOp τ sig (Elt F))), ∀ w, Proc.devRef .tc (Pipeline.arrRef spec0 w) ∉ op.writes := by
  intro op hop w
  simp only [hostOps1_1, List.mem_cons, List.mem_nil_iff, or_false] at hop
  try casesm* _ ∨ _
  all_goals (subst hop; fin_cases w <;> exact fun h => StableHlo.devRef_ne_of_ne (by decide) (Finset.mem_singleton.mp h))
theorem hostOps1_2_keeps : ∀ op ∈ (hostOps1_2 : List (HloOp τ sig (Elt F))), ∀ w, Proc.devRef .tc (Pipeline.arrRef spec0 w) ∉ op.writes := by
  intro op hop w
  simp only [hostOps1_2, List.mem_cons, List.mem_nil_iff, or_false] at hop
  try casesm* _ ∨ _
  all_goals (subst hop; fin_cases w <;> exact fun h => StableHlo.devRef_ne_of_ne (by decide) (Finset.mem_singleton.mp h))
theorem hostOps1_3_keeps : ∀ op ∈ (hostOps1_3 : List (HloOp τ sig (Elt F))), ∀ w, Proc.devRef .tc (Pipeline.arrRef spec0 w) ∉ op.writes := by
  intro op hop w
  simp only [hostOps1_3, List.mem_cons, List.mem_nil_iff, or_false] at hop
  try casesm* _ ∨ _
  all_goals (subst hop; fin_cases w <;> exact fun h => StableHlo.devRef_ne_of_ne (by decide) (Finset.mem_singleton.mp h))
theorem hostOps1_4_keeps : ∀ op ∈ (hostOps1_4 : List (HloOp τ sig (Elt F))), ∀ w, Proc.devRef .tc (Pipeline.arrRef spec0 w) ∉ op.writes := by
  intro op hop w
  simp only [hostOps1_4, List.mem_cons, List.mem_nil_iff, or_false] at hop
  try casesm* _ ∨ _
  all_goals (subst hop; fin_cases w <;> exact fun h => StableHlo.devRef_ne_of_ne (by decide) (Finset.mem_singleton.mp h))
theorem hostOps1_5_keeps : ∀ op ∈ (hostOps1_5 : List (HloOp τ sig (Elt F))), ∀ w, Proc.devRef .tc (Pipeline.arrRef spec0 w) ∉ op.writes := by
  intro op hop w
  simp only [hostOps1_5, List.mem_cons, List.mem_nil_iff, or_false] at hop
  try casesm* _ ∨ _
  all_goals (subst hop; fin_cases w <;> exact fun h => StableHlo.devRef_ne_of_ne (by decide) (Finset.mem_singleton.mp h))
theorem hostOps1_6_keeps : ∀ op ∈ (hostOps1_6 : List (HloOp τ sig (Elt F))), ∀ w, Proc.devRef .tc (Pipeline.arrRef spec0 w) ∉ op.writes := by
  intro op hop w
  simp only [hostOps1_6, List.mem_cons, List.mem_nil_iff, or_false] at hop
  try casesm* _ ∨ _
  all_goals (subst hop; fin_cases w <;> exact fun h => StableHlo.devRef_ne_of_ne (by decide) (Finset.mem_singleton.mp h))
theorem hostOps1_7_keeps : ∀ op ∈ (hostOps1_7 : List (HloOp τ sig (Elt F))), ∀ w, Proc.devRef .tc (Pipeline.arrRef spec0 w) ∉ op.writes := by
  intro op hop w
  simp only [hostOps1_7, List.mem_cons, List.mem_nil_iff, or_false] at hop
  try casesm* _ ∨ _
  all_goals (subst hop; fin_cases w <;> exact fun h => StableHlo.devRef_ne_of_ne (by decide) (Finset.mem_singleton.mp h))
theorem hostOps1_8_keeps : ∀ op ∈ (hostOps1_8 : List (HloOp τ sig (Elt F))), ∀ w, Proc.devRef .tc (Pipeline.arrRef spec0 w) ∉ op.writes := by
  intro op hop w
  simp only [hostOps1_8, List.mem_cons, List.mem_nil_iff, or_false] at hop
  try casesm* _ ∨ _
  all_goals (subst hop; fin_cases w <;> exact fun h => StableHlo.devRef_ne_of_ne (by decide) (Finset.mem_singleton.mp h))

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  rcases mem_tailOps hops with rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop

/-! ## The run and the frame -/

set_option backward.isDefEq.respectTransparency.types false in
/-- Every weakly fair execution of @main terminates; in every final state each array of the pipeline holds what the
    proof data computes and every other unscoped buffer what the later operations leave. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Fr

end
-- ==== Proof.LibRankSeven.lean ====
/-
  The row-major position of an index of a rank-7 shape as one sum of products,
  ((((((i0 d1 + i1) d2 + i2) d3 + i3) d4 + i4) d5 + i5) d6 + i6, for any extents d: the rank-7 companion of the
  library's `Shape.rowMajor_val_one` … `rowMajor_val_five`, in the form linear arithmetic can use when two shapes'
  positions are compared (a reshape read at an index).
-/
import Idealize.ShloMosaic.PureOps

namespace Cert.LibRankSeven

open Idealize.ShloMosaic

/-- Rank 7: a row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Cert.LibRankSeven
-- ==== Proof.Relayout.lean ====
/-
  A patchify relayout as pure index arithmetic.

  A pixel array of shape [32, 4, 3, 28, 16, 28, 16] (batch, frame, channel, patch row, row in patch, patch column,
  column in patch) is turned into rows of patch features [32, 3136, 768] in two ways:

  * build the array [32, 4, 28, 28, 768] whose entry (b, t, r, c, k) is the pixel
    (b, t, k / 256, r, k % 256 / 16, c, k % 16), and read it row-major as [32, 3136, 768];
  * permute the axes to [32, 4, 28, 28, 3, 16, 16] and read that row-major as [32, 3136, 768].

  Entry (b, n, k) of the result has row-major position (b * 3136 + n) * 768 + k.  With n = 784 t + 28 r + c and
  k = 256 ch + 16 pr + pc this is the position of (b, t, r, c, k) in the first intermediate array and of
  (b, t, r, c, ch, pr, pc) in the second, and both read the pixel (b, t, ch, r, pr, c, pc).  So the two are equal,
  whatever the element type.
-/
import Idealize.ShloMosaic.PureOps
import Idealize.ShloMosaic.Lib.ValueIdx
import Idealize.ShloMosaic.Lib.Pipeline.Value
import proofs.«169261_j75084618268853_2_alg».proof.Proof.LibRankSeven

namespace Cert.Relayout

open Idealize.ShloMosaic Cert.LibRankSeven

/-- The pixel array's shape: batch, frame, channel, patch row, row in patch, patch column, column in patch. -/
abbrev A7 : Shape := ⟨7, ![32, 4, 3, 28, 16, 28, 16]⟩
/-- The patch array's shape: batch, frame, patch row, patch column, feature. -/
abbrev P5 : Shape := ⟨5, ![32, 4, 28, 28, 768]⟩
/-- The permuted pixel array's shape: batch, frame, patch row, patch column, channel, row in patch, column in patch. -/
abbrev T7 : Shape := ⟨7, ![32, 4, 28, 28, 3, 16, 16]⟩
/-- The result's shape: batch, patch, feature. -/
abbrev P3 : Shape := ⟨3, ![32, 3136, 768]⟩

/-- the index of A7 with the given coordinates -/
def ix7 (b : Fin 32) (t : Fin 4) (ch : Fin 3) (r : Fin 28) (pr : Fin 16) (c : Fin 28) (pc : Fin 16) : A7.Idx :=
  fun d => match d with
    | ⟨0, _⟩ => b | ⟨1, _⟩ => t | ⟨2, _⟩ => ch | ⟨3, _⟩ => r | ⟨4, _⟩ => pr | ⟨5, _⟩ => c | ⟨6, _⟩ => pc

section
variable (b : Fin 32) (t : Fin 4) (ch : Fin 3) (r : Fin 28) (pr : Fin 16) (c : Fin 28) (pc : Fin 16)
@[simp] theorem ix7_val0 : (ix7 b t ch r pr c pc 0).val = b.val := rfl
@[simp] theorem ix7_val1 : (ix7 b t ch r pr c pc 1).val = t.val := rfl
@[simp] theorem ix7_val2 : (ix7 b t ch r pr c pc 2).val = ch.val := rfl
@[simp] theorem ix7_val3 : (ix7 b t ch r pr c pc 3).val = r.val := rfl
@[simp] theorem ix7_val4 : (ix7 b t ch r pr c pc 4).val = pr.val := rfl
@[simp] theorem ix7_val5 : (ix7 b t ch r pr c pc 5).val = c.val := rfl
@[simp] theorem ix7_val6 : (ix7 b t ch r pr c pc 6).val = pc.val := rfl
end

/-- the index of T7 with the given coordinates -/
def ixT7 (b : Fin 32) (t : Fin 4) (r : Fin 28) (c : Fin 28) (ch : Fin 3) (pr : Fin 16) (pc : Fin 16) : T7.Idx :=
  fun d => match d with
    | ⟨0, _⟩ => b | ⟨1, _⟩ => t | ⟨2, _⟩ => r | ⟨3, _⟩ => c | ⟨4, _⟩ => ch | ⟨5, _⟩ => pr | ⟨6, _⟩ => pc

section
variable (b : Fin 32) (t : Fin 4) (r : Fin 28) (c : Fin 28) (ch : Fin 3) (pr : Fin 16) (pc : Fin 16)
@[simp] theorem ixT7_val0 : (ixT7 b t r c ch pr pc 0).val = b.val := rfl
@[simp] theorem ixT7_val1 : (ixT7 b t r c ch pr pc 1).val = t.val := rfl
@[simp] theorem ixT7_val2 : (ixT7 b t r c ch pr pc 2).val = r.val := rfl
@[simp] theorem ixT7_val3 : (ixT7 b t r c ch pr pc 3).val = c.val := rfl
@[simp] theorem ixT7_val4 : (ixT7 b t r c ch pr pc 4).val = ch.val := rfl
@[simp] theorem ixT7_val5 : (ixT7 b t r c ch pr pc 5).val = pr.val := rfl
@[simp] theorem ixT7_val6 : (ixT7 b t r c ch pr pc 6).val = pc.val := rfl
end

/-- the patch array as a function of the pixel array -/
def patchOf {α : Type} (x : A7.Idx → α) : P5.Idx → α :=
  fun j => x (ix7 (j 0) (j 1)
    ⟨(j 4).val / 256, by have h : (j 4).val < 768 := (j 4).isLt; omega⟩ (j 2)
    ⟨(j 4).val % 256 / 16, by omega⟩ (j 3)
    ⟨(j 4).val % 16, by omega⟩)

/-- The patch array at the index with coordinates (b, t, r, c, k). -/
theorem patchOf_apply {α : Type} (x : A7.Idx → α) (b : Fin 32) (t : Fin 4) (r : Fin 28) (c : Fin 28) (k : Fin 768) :
    patchOf x (ValueIdx.ix5 b t r c k)
      = x (ix7 b t ⟨k.val / 256, by have := k.isLt; omega⟩ r ⟨k.val % 256 / 16, by omega⟩ c ⟨k.val % 16, by omega⟩) :=
  rfl

/-- THE RELAYOUT: the patch array read row-major as [32, 3136, 768] is the axis-permuted pixel array read row-major as
    [32, 3136, 768].  At (b, n, k) both read the pixel
    (b, n / 784, k / 256, n % 784 / 28, k % 256 / 16, n % 28, k % 16). -/
theorem relayout {α : Type} (x : A7.Idx → α) (h1 : P5.ShapeCasts P3) (h2 : A7.Transposes [0, 1, 3, 5, 2, 4, 6] T7)
    (h3 : T7.ShapeCasts P3) :
    shapeCast P3 (patchOf x) h1 = shapeCast P3 (transpose T7 [0, 1, 3, 5, 2, 4, 6] x h2) h3 := by
  funext i
  obtain ⟨b, n, k, rfl⟩ : ∃ (b : Fin 32) (n : Fin 3136) (k : Fin 768), i = ValueIdx.ix3 b n k :=
    ⟨i 0, i 1, i 2, ValueIdx.eq_ix3 i⟩
  have hb := b.isLt
  have hn := n.isLt
  have hk := k.isLt
  -- the coordinates of patch n and of feature k
  let t : Fin 4 := ⟨n.val / 784, by omega⟩
  let r : Fin 28 := ⟨n.val % 784 / 28, by omega⟩
  let c : Fin 28 := ⟨n.val % 28, by omega⟩
  let ch : Fin 3 := ⟨k.val / 256, by omega⟩
  let pr : Fin 16 := ⟨k.val % 256 / 16, by omega⟩
  let pc : Fin 16 := ⟨k.val % 16, by omega⟩
  -- the position of (b, n, k) in the result
  have e3 : (P3.rowMajor (ValueIdx.ix3 b n k)).val = (b.val * 3136 + n.val) * 768 + k.val :=
    Shape.rowMajor_val_three _
  -- the left side reads the patch array at (b, t, r, c, k)
  have eL : shapeCast P3 (patchOf x) h1 (ValueIdx.ix3 b n k) = patchOf x (ValueIdx.ix5 b t r c k) := by
    refine shapeCast_apply (patchOf x) h1 _ _ ?_
    rw [e3]
    refine (Shape.rowMajor_val_five _).trans ?_
    show ((((b.val * 4 + n.val / 784) * 28 + n.val % 784 / 28) * 28 + n.val % 28) * 768 + k.val : Nat) = _
    omega
  -- the right side reads the permuted array at (b, t, r, c, ch, pr, pc)
  have eR : shapeCast P3 (transpose T7 [0, 1, 3, 5, 2, 4, 6] x h2) h3 (ValueIdx.ix3 b n k)
      = transpose T7 [0, 1, 3, 5, 2, 4, 6] x h2 (ixT7 b t r c ch pr pc) := by
    refine shapeCast_apply _ h3 _ _ ?_
    rw [e3]
    refine (rowMajor_val_seven _).trans ?_
    show ((((((b.val * 4 + n.val / 784) * 28 + n.val % 784 / 28) * 28 + n.val % 28) * 3 + k.val / 256) * 16
      + k.val % 256 / 16) * 16 + k.val % 16 : Nat) = _
    omega
  -- which is the pixel (b, t, ch, r, pr, c, pc)
  have eT : transpose T7 [0, 1, 3, 5, 2, 4, 6] x h2 (ixT7 b t r c ch pr pc) = x (ix7 b t ch r pr c pc) := by
    refine transpose_apply _ x h2 _ _ ?_
    intro a
    fin_cases a <;> rfl
  rw [eL, eR, eT]
  rfl

end Cert.Relayout
-- ==== Proof.PieceRelayout.lean ====
/-
  One grid point of the patchify relayout, as pure index arithmetic.

  At one grid point the input block has shape [1, 1, 3, 28, 16, 28, 16] (one batch entry, one frame; channel, patch
  row, row in patch, patch column, column in patch) and the output block has shape [1, 1, 28, 28, 768].  For each
  channel ch < 3 and row in patch pr < 16, the slab of the input block at offsets (0, 0, ch, 0, pr, 0, 0) of sizes
  [1, 1, 1, 28, 1, 28, 16] is read row-major as [28, 28, 16], that as [1, 1, 28, 28, 16], and the result lands at
  offsets (0, 0, 0, 0, o), o = (ch * 16 + pr) * 16 = 256 ch + 16 pr, of the output block.

  Entry (0, 0, r, c, pc) of the piece is the input at (0, 0, ch, r, pr, c, pc), and it lands at feature k = o + pc, for
  which k / 256 = ch, k % 256 / 16 = pr and k % 16 = pc.  So every piece is a block of ONE function of the input block:
  the one whose entry (0, 0, r, c, k) is the input at (0, 0, k / 256, r, k % 256 / 16, c, k % 16).  That function is the
  whole patch array of Relayout.lean read at one batch entry and one frame.
-/
import proofs.«169261_j75084618268853_2_alg».proof.Proof.Relayout
import Idealize.ShloMosaic.Lib.Pipeline.FrameBody

namespace Cert.Relayout

open Idealize.ShloMosaic Cert.LibRankSeven

/-- The input block's shape: one batch entry, one frame; channel, patch row, row in patch, patch column, column in
    patch. -/
abbrev B7 : Shape := ⟨7, ![1, 1, 3, 28, 16, 28, 16]⟩
/-- One slab of the input block: one channel and one row in patch, every patch row, patch column and column in patch. -/
abbrev L7 : Shape := ⟨7, ![1, 1, 1, 28, 1, 28, 16]⟩
/-- The slab without its unit axes: patch row, patch column, column in patch. -/
abbrev M3 : Shape := ⟨3, ![28, 28, 16]⟩
/-- The slab as a piece of the output block. -/
abbrev Q5 : Shape := ⟨5, ![1, 1, 28, 28, 16]⟩
/-- The output block's shape: one batch entry, one frame; patch row, patch column, feature. -/
abbrev B5 : Shape := ⟨5, ![1, 1, 28, 28, 768]⟩

/-- the index (0, 0, ch, r, pr, c, pc) of B7 -/
def ixB7 (ch : Fin 3) (r : Fin 28) (pr : Fin 16) (c : Fin 28) (pc : Fin 16) : B7.Idx :=
  fun d => match d with
    | ⟨0, _⟩ => (0 : Fin 1) | ⟨1, _⟩ => (0 : Fin 1) | ⟨2, _⟩ => ch | ⟨3, _⟩ => r | ⟨4, _⟩ => pr | ⟨5, _⟩ => c
    | ⟨6, _⟩ => pc

section
variable (ch : Fin 3) (r : Fin 28) (pr : Fin 16) (c : Fin 28) (pc : Fin 16)
@[simp] theorem ixB7_val0 : (ixB7 ch r pr c pc 0).val = 0 := rfl
@[simp] theorem ixB7_val1 : (ixB7 ch r pr c pc 1).val = 0 := rfl
@[simp] theorem ixB7_val2 : (ixB7 ch r pr c pc 2).val = ch.val := rfl
@[simp] theorem ixB7_val3 : (ixB7 ch r pr c pc 3).val = r.val := rfl
@[simp] theorem ixB7_val4 : (ixB7 ch r pr c pc 4).val = pr.val := rfl
@[simp] theorem ixB7_val5 : (ixB7 ch r pr c pc 5).val = c.val := rfl
@[simp] theorem ixB7_val6 : (ixB7 ch r pr c pc 6).val = pc.val := rfl
end

/-- the index (0, 0, 0, r, 0, c, pc) of L7 -/
def ixL7 (r : Fin 28) (c : Fin 28) (pc : Fin 16) : L7.Idx :=
  fun d => match d with
    | ⟨0, _⟩ => (0 : Fin 1) | ⟨1, _⟩ => (0 : Fin 1) | ⟨2, _⟩ => (0 : Fin 1) | ⟨3, _⟩ => r | ⟨4, _⟩ => (0 : Fin 1)
    | ⟨5, _⟩ => c | ⟨6, _⟩ => pc

/-- Two indices of B7 with the same seven coordinates are equal. -/
theorem B7_ext {i j : B7.Idx} (h0 : (i 0).val = (j 0).val) (h1 : (i 1).val = (j 1).val) (h2 : (i 2).val = (j 2).val)
    (h3 : (i 3).val = (j 3).val) (h4 : (i 4).val = (j 4).val) (h5 : (i 5).val = (j 5).val)
    (h6 : (i 6).val = (j 6).val) : i = j := by
  funext a
  refine Fin.ext ?_
  match a with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6

/-- the output block as a function of the input block -/
def blockOf {α : Type} (x : B7.Idx → α) : B5.Idx → α :=
  fun y => x (ixB7
    ⟨(y 4).val / 256, by have h : (y 4).val < 768 := (y 4).isLt; omega⟩ (y 2)
    ⟨(y 4).val % 256 / 16, by omega⟩ (y 3)
    ⟨(y 4).val % 16, by omega⟩)

/-- The whole patch array at batch entry b and frame t is the output block of the input block at b and t. -/
theorem patchOf_block {α : Type} (X : A7.Idx → α) (b : Fin 32) (t : Fin 4) (y : B5.Idx) :
    patchOf X (ValueIdx.ix5 b t (y 2) (y 3) (y 4))
      = blockOf (fun z : B7.Idx => X (ix7 b t (z 2) (z 3) (z 4) (z 5) (z 6))) y :=
  rfl

/-- ONE PIECE: the slab of the input block at channel ch and row in patch pr, read row-major as [28, 28, 16] and then
    as [1, 1, 28, 28, 16], is the output block's function of the input block, read on the rectangle at feature offset
    o = (ch * 16 + pr) * 16 where the piece lands.  At (0, 0, r, c, pc) both are the input at (0, 0, ch, r, pr, c, pc). -/
theorem piece_eq {Val : EltTy → Type} {e : EltTy} (x : B7.Idx → Val e) (ch pr o : Nat) (ho : o = (ch * 16 + pr) * 16)
    (hch : ch < 3) (hpr : pr < 16)
    (hin : ∀ a, (![0, 0, ch, 0, pr, 0, 0] : Fin 7 → Nat) a + (![1, 1, 1, 28, 1, 28, 16] : Fin 7 → Nat) a ≤ B7.size a)
    (hout : ∀ a, (![0, 0, 0, 0, o] : Fin 5 → Nat) a + (![1, 1, 28, 28, 16] : Fin 5 → Nat) a ≤ B5.size a)
    (h1 : L7.ShapeCasts M3) (h2 : M3.ShapeCasts Q5) (y : Q5.Idx) :
    shapeCast Q5 (shapeCast M3 (View.ld x (Rect.unit (s := B7) ![0, 0, ch, 0, pr, 0, 0] ![1, 1, 1, 28, 1, 28, 16] hin)) h1) h2 y
      = blockOf x ((Rect.unit (s := B5) ![0, 0, 0, 0, o] ![1, 1, 28, 28, 16] hout).emb y) := by
  -- the coordinates of y: two unit axes, then patch row, patch column, column in patch
  have hy0 : (y 0).val < 1 := (y 0).isLt
  have hy1 : (y 1).val < 1 := (y 1).isLt
  have hy4 : (y 4).val < 16 := (y 4).isLt
  let r : Fin 28 := y 2
  let c : Fin 28 := y 3
  let pc : Fin 16 := y 4
  -- the position of y in [1, 1, 28, 28, 16] is the position of (r, c, pc) in [28, 28, 16]
  have e5 : (Q5.rowMajor y).val = (r.val * 28 + c.val) * 16 + pc.val := by
    refine (Shape.rowMajor_val_five y).trans ?_
    show (((((y 0).val * 1 + (y 1).val) * 28 + (y 2).val) * 28 + (y 3).val) * 16 + (y 4).val : Nat)
      = ((y 2).val * 28 + (y 3).val) * 16 + (y 4).val
    omega
  have e3 : (M3.rowMajor (ValueIdx.ix3 r c pc)).val = (r.val * 28 + c.val) * 16 + pc.val :=
    Shape.rowMajor_val_three _
  -- which is the position of (0, 0, 0, r, 0, c, pc) in the slab
  have e7 : (L7.rowMajor (ixL7 r c pc)).val = (r.val * 28 + c.val) * 16 + pc.val := by
    refine (rowMajor_val_seven (ixL7 r c pc)).trans ?_
    show (((((((0 : Nat) * 1 + 0) * 1 + 0) * 28 + r.val) * 1 + 0) * 28 + c.val) * 16 + pc.val : Nat) = _
    omega
  -- the second cast reads the first at (r, c, pc)
  have s2 : ∀ (F : M3.Idx → Val e), shapeCast Q5 F h2 y = F (ValueIdx.ix3 r c pc) := fun F =>
    shapeCast_apply F h2 y (ValueIdx.ix3 r c pc) (e3.trans e5.symm)
  -- the first cast reads the slab at (0, 0, 0, r, 0, c, pc)
  have s1 : ∀ (G : L7.Idx → Val e), shapeCast M3 G h1 (ValueIdx.ix3 r c pc) = G (ixL7 r c pc) := fun G =>
    shapeCast_apply G h1 (ValueIdx.ix3 r c pc) (ixL7 r c pc) (e7.trans e3.symm)
  refine (s2 _).trans ((s1 _).trans ?_)
  -- the slab at (0, 0, 0, r, 0, c, pc) is the input at (0, 0, ch, r, pr, c, pc); the piece lands at feature o + pc
  have k4 : (((Rect.unit (s := B5) ![0, 0, 0, 0, o] ![1, 1, 28, 28, 16] hout).emb y) 4).val = o + 1 * (y 4).val := rfl
  have k2 : (((Rect.unit (s := B5) ![0, 0, 0, 0, o] ![1, 1, 28, 28, 16] hout).emb y) 2).val = 0 + 1 * (y 2).val := rfl
  have k3 : (((Rect.unit (s := B5) ![0, 0, 0, 0, o] ![1, 1, 28, 28, 16] hout).emb y) 3).val = 0 + 1 * (y 3).val := rfl
  show x ((Rect.unit (s := B7) ![0, 0, ch, 0, pr, 0, 0] ![1, 1, 1, 28, 1, 28, 16] hin).idx (ixL7 r c pc)) = x (ixB7 _ _ _ _ _)
  refine congrArg x (B7_ext ?_ ?_ ?_ ?_ ?_ ?_ ?_)
  · rfl
  · rfl
  · show ch + 1 * 0 = (((Rect.unit (s := B5) ![0, 0, 0, 0, o] ![1, 1, 28, 28, 16] hout).emb y) 4).val / 256
    rw [k4]; omega
  · show 0 + 1 * (y 2).val = (((Rect.unit (s := B5) ![0, 0, 0, 0, o] ![1, 1, 28, 28, 16] hout).emb y) 2).val
    rw [k2]
  · show pr + 1 * 0 = (((Rect.unit (s := B5) ![0, 0, 0, 0, o] ![1, 1, 28, 28, 16] hout).emb y) 4).val % 256 / 16
    rw [k4]; omega
  · show 0 + 1 * (y 3).val = (((Rect.unit (s := B5) ![0, 0, 0, 0, o] ![1, 1, 28, 28, 16] hout).emb y) 3).val
    rw [k3]
  · show 0 + 1 * (y 4).val = (((Rect.unit (s := B5) ![0, 0, 0, 0, o] ![1, 1, 28, 28, 16] hout).emb y) 4).val % 16
    rw [k4]; omega

end Cert.Relayout
-- ==== Proof.KValue.lean ====
/-
  What the patch-extraction kernel's region leaves in the patch array, as one function of the pixel array.

  At a grid point the body's 48 stored pieces are blocks of one function of the input block: entry (r, c, k) of the
  output block is the pixel (k / 256, r, k % 256 / 16, c, k % 16) of the input block. Grid point t = 4 b + f stages
  the pixel block of batch b and frame f and writes back the patch block of batch b and frame f, so what it writes
  back is block t of the whole patch array — entry (b, f, r, c, k) the pixel (b, f, k / 256, r, k % 256 / 16, c, k % 16) —
  and the 128 blocks cover that array.
-/
import proofs.«169261_j75084618268853_2_alg».proof.Proof.KMain
import proofs.«169261_j75084618268853_2_alg».proof.Proof.PieceRelayout
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Relayout

variable {F : FTy → Type} [FloatOps F]

variable (m : (ℓ : Loc nD τ sig) → Buf (Elt F) ℓ) (ρ : Dev nD → PrngReg)

/-! ## The body's pieces are blocks of one function of the input block -/

theorem pieces_block (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) :
    ∀ p ∈ (kernelRun0 c i arg2 harg2 arg3 harg3 x0).1, ∀ x : p.1.shape.Idx, p.2 x = blockOf x0 (p.1.emb x) := by
  unfold kernelRun0; dsimp only
  sl_unfold_words
  simp only [View.readAt_eq_ld, harg2.read_unread]
  intro p hp
  simp only [List.mem_cons, List.mem_nil_iff, or_false] at hp
  casesm* _ ∨ _
  all_goals (subst hp; dsimp only; intro x; exact piece_eq x0 _ _ _ (by rfl) (by decide) (by decide) _ _ _ _ x)

/-- What the body leaves in the output block's buffer is that function of the input block. -/
theorem out0_eq (c : Dev nD) (i : grid0.Coords) (arg2 : Memref sig .tc .vmem S1x1x3x28x16x28x16 .f32) (harg2 : arg2.IsWhole)
    (arg3 : Memref sig .tc .vmem S1x1x28x28x768 .f32) (harg3 : arg3.IsWhole) (x0 : Vec F S1x1x3x28x16x28x16 .f32) :
    out0 c i arg2 harg2 arg3 harg3 x0 = blockOf x0 := by
  unfold out0
  rw [View.read_writes_eq_canon _ _ _ (cover0 c i arg2 harg2 arg3 harg3 x0)]
  funext y
  exact View.canon_apply_of_pieces (blockOf x0) _ (pieces_block c i arg2 harg2 arg3 harg3 x0) y (cover0 c i arg2 harg2 arg3 harg3 x0 y)

/-! ## From blocks to the array -/

/-- The printed index maps over the grid: point t is (batch t / 4, frame t % 4) for both windows, block 0 on every other axis. -/
theorem idx_facts : ∀ t : Fin cfg0.N,
    win0_0.index t (0 : Fin 7) = t.val / 4 ∧ win0_0.index t (1 : Fin 7) = t.val % 4 ∧ win0_0.index t (2 : Fin 7) = 0
    ∧ win0_0.index t (3 : Fin 7) = 0 ∧ win0_0.index t (4 : Fin 7) = 0 ∧ win0_0.index t (5 : Fin 7) = 0 ∧ win0_0.index t (6 : Fin 7) = 0
    ∧ win0_1.index t (0 : Fin 5) = t.val / 4 ∧ win0_1.index t (1 : Fin 5) = t.val % 4 ∧ win0_1.index t (2 : Fin 5) = 0
    ∧ win0_1.index t (3 : Fin 5) = 0 ∧ win0_1.index t (4 : Fin 5) = 0 :=
  (by decide +kernel : ∀ t : Fin grid0.N, _)

/-- The patch array after the region, as a function of the pixel array the region finds. -/
abbrev patches (c : Dev nD) : S32x4x28x28x768.Idx → Elt F .f32 :=
  patchOf (V m c main_v0 : S32x4x3x28x16x28x16.Idx → Elt F .f32)

/-- What point `t` writes back is block `t` of the patch array. -/
theorem flushed_eq (c : Dev nD) (t : Fin cfg0.N) :
    (dats m 0 c).flushed 1 t = ((cfg0.win 1).blk t).view.read (Elt F) (patches m c) := by
  show (cfg0.win 1).cut (grid0.coords t) ((dats m 0 c).after 1 t) = _
  rw [after0_1, out0_eq]
  obtain ⟨e0, e1, e2, e3, e4, e5, e6, f0, f1, f2, f3, f4⟩ := idx_facts t
  have ht : t.val < 128 := lt_of_lt_of_eq t.isLt (show cfg0.N = 128 from N_0)
  funext y
  have hy0 : (y 0).val < 1 := (y 0).isLt
  have hy1 : (y 1).val < 1 := (y 1).isLt
  have hy2 : (y 2).val < 28 := (y 2).isLt
  have hy3 : (y 3).val < 28 := (y 3).isLt
  have hy4 : (y 4).val < 768 := (y 4).isLt
  -- the input block is the pixel array read at batch t / 4, frame t % 4
  have hblk : (iblk m c 0 t : S1x1x3x28x16x28x16.Idx → Elt F .f32)
      = fun z => V m c main_v0 (ix7 ⟨t.val / 4, by omega⟩ ⟨t.val % 4, by omega⟩ (z 2) (z 3) (z 4) (z 5) (z 6)) := by
    funext z
    have hz0 : (z 0).val < 1 := (z 0).isLt
    have hz1 : (z 1).val < 1 := (z 1).isLt
    show V m c main_v0 (((cfg0.win 0).blk t).view.emb z) = _
    refine congrArg (V m c main_v0) (funext fun a => Fin.ext ?_)
    match a with
    | ⟨0, _⟩ => show win0_0.index t (0 : Fin 7) * 1 + 1 * (z 0).val = t.val / 4; omega
    | ⟨1, _⟩ => show win0_0.index t (1 : Fin 7) * 1 + 1 * (z 1).val = t.val % 4; omega
    | ⟨2, _⟩ => show win0_0.index t (2 : Fin 7) * 3 + 1 * (z 2).val = (z 2).val; omega
    | ⟨3, _⟩ => show win0_0.index t (3 : Fin 7) * 28 + 1 * (z 3).val = (z 3).val; omega
    | ⟨4, _⟩ => show win0_0.index t (4 : Fin 7) * 16 + 1 * (z 4).val = (z 4).val; omega
    | ⟨5, _⟩ => show win0_0.index t (5 : Fin 7) * 28 + 1 * (z 5).val = (z 5).val; omega
    | ⟨6, _⟩ => show win0_0.index t (6 : Fin 7) * 16 + 1 * (z 6).val = (z 6).val; omega
  -- the output block's index y sits in the patch array at (t / 4, t % 4, y 2, y 3, y 4)
  have hemb : ((cfg0.win 1).blk t).view.emb y
      = ValueIdx.ix5 (⟨t.val / 4, by omega⟩ : Fin 32) (⟨t.val % 4, by omega⟩ : Fin 4) (y 2) (y 3) (y 4) := by
    funext a; apply Fin.ext
    match a with
    | ⟨0, _⟩ => show win0_1.index t (0 : Fin 5) * 1 + 1 * (y 0).val = t.val / 4; omega
    | ⟨1, _⟩ => show win0_1.index t (1 : Fin 5) * 1 + 1 * (y 1).val = t.val % 4; omega
    | ⟨2, _⟩ => show win0_1.index t (2 : Fin 5) * 28 + 1 * (y 2).val = (y 2).val; omega
    | ⟨3, _⟩ => show win0_1.index t (3 : Fin 5) * 28 + 1 * (y 3).val = (y 3).val; omega
    | ⟨4, _⟩ => show win0_1.index t (4 : Fin 5) * 768 + 1 * (y 4).val = (y 4).val; omega
  show blockOf (iblk m c 0 t) y = patchOf (V m c main_v0 : S32x4x3x28x16x28x16.Idx → Elt F .f32) (((cfg0.win 1).blk t).view.emb y)
  rw [hblk, hemb]
  exact (patchOf_block _ _ _ y).symm

/-- An index of the patch array is in point `t`'s block iff each coordinate is in the block's range on its axis. -/
theorem mem_blk (t : Fin cfg0.N) (i : S32x4x28x28x768.Idx) :
    i ∈ ((cfg0.win 1).blk t).view.set ↔ ∀ a : Fin 5, win0_1.index t a * S1x1x28x28x768.size a ≤ (i a).val
      ∧ (i a).val < win0_1.index t a * S1x1x28x28x768.size a + S1x1x28x28x768.size a := by
  show i ∈ ((View.whole main_v1).slice (win0_1.rect t)).set ↔ _
  rw [View.set_slice_whole, Rect.mem_set_unit]
  exact Iff.rfl

/-- Every index (b, f, r, c, k) of the patch array is in the block of point 4 b + f. -/
theorem cover (i : S32x4x28x28x768.Idx) :
    ∃ t : Fin cfg0.N, (cfg0.win 1).flush t = true ∧ i ∈ ((cfg0.win 1).blk t).view.set := by
  have hi0 : (i 0).val < 32 := (i 0).isLt
  have hi1 : (i 1).val < 4 := (i 1).isLt
  have hi2 : (i 2).val < 28 := (i 2).isLt
  have hi3 : (i 3).val < 28 := (i 3).isLt
  have hi4 : (i 4).val < 768 := (i 4).isLt
  let t : Fin cfg0.N := ⟨(i 0).val * 4 + (i 1).val, by rw [show cfg0.N = 128 from N_0]; omega⟩
  have htv : t.val = (i 0).val * 4 + (i 1).val := rfl
  obtain ⟨e0, e1, e2, e3, e4, e5, e6, f0, f1, f2, f3, f4⟩ := idx_facts t
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 28 ≤ (i 2).val ∧ (i 2).val < win0_1.index t (2 : Fin 5) * 28 + 28; omega
  | ⟨3, _⟩ => show win0_1.index t (3 : Fin 5) * 28 ≤ (i 3).val ∧ (i 3).val < win0_1.index t (3 : Fin 5) * 28 + 28; omega
  | ⟨4, _⟩ => show win0_1.index t (4 : Fin 5) * 768 ≤ (i 4).val ∧ (i 4).val < win0_1.index t (4 : Fin 5) * 768 + 768; omega

/-- THE PATCH ARRAY after the region. -/
theorem final (c : Dev nD) : (dats m 0 c).arrAt 1 cfg0.N = patches m c :=
  (dats m 0 c).arrAt_eq_of_cover 1 (patches m c) (fun t _ => flushed_eq m c t) cover

end Cert.KernelIdeal.Fr

end
-- ==== Proof.KArg.lean ====
/-
  The frame of the patch-extraction program: the argument array is staged by no window and written by no host
  operation — the one reshape before the region writes the reshaped copy, each of the ninety operations after it
  a buffer of its own — so it ends as it was launched.
-/
import proofs.«169261_j75084618268853_2_alg».proof.Proof.KMain

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ) (ρ : Dev nD → PrngReg)

theorem hostOps1_arg : ∀ op ∈ (hostOps1 : List (HloOp τ sig (Elt F))), Proc.devRef .tc main_arg0 ∉ op.writes := by
  intro op hop
  simp only [hostOps1, List.mem_cons, List.mem_nil_iff, or_false] at hop
  try casesm* _ ∨ _
  all_goals (subst hop; exact fun h => StableHlo.devRef_ne_of_ne (by decide) (Finset.mem_singleton.mp h))
theorem hostOps1_1_arg : ∀ op ∈ (hostOps1_1 : List (HloOp τ sig (Elt F))), Proc.devRef .tc main_arg0 ∉ op.writes := by
  intro op hop
  simp only [hostOps1_1, List.mem_cons, List.mem_nil_iff, or_false] at hop
  try casesm* _ ∨ _
  all_goals (subst hop; exact fun h => StableHlo.devRef_ne_of_ne (by decide) (Finset.mem_singleton.mp h))
theorem hostOps1_2_arg : ∀ op ∈ (hostOps1_2 : List (HloOp τ sig (Elt F))), Proc.devRef .tc main_arg0 ∉ op.writes := by
  intro op hop
  simp only [hostOps1_2, List.mem_cons, List.mem_nil_iff, or_false] at hop
  try casesm* _ ∨ _
  all_goals (subst hop; exact fun h => StableHlo.devRef_ne_of_ne (by decide) (Finset.mem_singleton.mp h))
theorem hostOps1_3_arg : ∀ op ∈ (hostOps1_3 : List (HloOp τ sig (Elt F))), Proc.devRef .tc main_arg0 ∉ op.writes := by
  intro op hop
  simp only [hostOps1_3, List.mem_cons, List.mem_nil_iff, or_false] at hop
  try casesm* _ ∨ _
  all_goals (subst hop; exact fun h => StableHlo.devRef_ne_of_ne (by decide) (Finset.mem_singleton.mp h))
theorem hostOps1_4_arg : ∀ op ∈ (hostOps1_4 : List (HloOp τ sig (Elt F))), Proc.devRef .tc main_arg0 ∉ op.writes := by
  intro op hop
  simp only [hostOps1_4, List.mem_cons, List.mem_nil_iff, or_false] at hop
  try casesm* _ ∨ _
  all_goals (subst hop; exact fun h => StableHlo.devRef_ne_of_ne (by decide) (Finset.mem_singleton.mp h))
theorem hostOps1_5_arg : ∀ op ∈ (hostOps1_5 : List (HloOp τ sig (Elt F))), Proc.devRef .tc main_arg0 ∉ op.writes := by
  intro op hop
  simp only [hostOps1_5, List.mem_cons, List.mem_nil_iff, or_false] at hop
  try casesm* _ ∨ _
  all_goals (subst hop; exact fun h => StableHlo.devRef_ne_of_ne (by decide) (Finset.mem_singleton.mp h))
theorem hostOps1_6_arg : ∀ op ∈ (hostOps1_6 : List (HloOp τ sig (Elt F))), Proc.devRef .tc main_arg0 ∉ op.writes := by
  intro op hop
  simp only [hostOps1_6, List.mem_cons, List.mem_nil_iff, or_false] at hop
  try casesm* _ ∨ _
  all_goals (subst hop; exact fun h => StableHlo.devRef_ne_of_ne (by decide) (Finset.mem_singleton.mp h))
theorem hostOps1_7_arg : ∀ op ∈ (hostOps1_7 : List (HloOp τ sig (Elt F))), Proc.devRef .tc main_arg0 ∉ op.writes := by
  intro op hop
  simp only [hostOps1_7, List.mem_cons, List.mem_nil_iff, or_false] at hop
  try casesm* _ ∨ _
  all_goals (subst hop; exact fun h => StableHlo.devRef_ne_of_ne (by decide) (Finset.mem_singleton.mp h))
theorem hostOps1_8_arg : ∀ op ∈ (hostOps1_8 : List (HloOp τ sig (Elt F))), Proc.devRef .tc main_arg0 ∉ op.writes := by
  intro op hop
  simp only [hostOps1_8, List.mem_cons, List.mem_nil_iff, or_false] at hop
  try casesm* _ ∨ _
  all_goals (subst hop; exact fun h => StableHlo.devRef_ne_of_ne (by decide) (Finset.mem_singleton.mp h))

/-- No operation after the region writes the argument array. -/
theorem tail_keeps_arg0 : ∀ op ∈ (tailOps (F := F)).flatten, Proc.devRef .tc main_arg0 ∉ op.writes := by
  intro op hop
  obtain ⟨ops, hops, hop'⟩ := List.mem_flatten.mp hop
  rcases mem_tailOps hops with rfl | rfl | rfl | rfl | rfl | rfl | rfl | rfl | rfl
  · exact hostOps1_arg op hop'
  · exact hostOps1_1_arg op hop'
  · exact hostOps1_2_arg op hop'
  · exact hostOps1_3_arg op hop'
  · exact hostOps1_4_arg op hop'
  · exact hostOps1_5_arg op hop'
  · exact hostOps1_6_arg op hop'
  · exact hostOps1_7_arg op hop'
  · exact hostOps1_8_arg op hop'

theorem after_tail_arg0 (W : Valuation τ sig (Elt F)) :
    StableHlo.after (tailOps (F := F)).flatten W (Proc.devRef .tc main_arg0) = W (Proc.devRef .tc main_arg0) :=
  StableHlo.after_of_forall_not_mem _ W tail_keeps_arg0

/-- The region finds the argument array as launched: the reshape before it writes another buffer. -/
theorem V_main_arg0 (c : Dev nD) : V m c main_arg0 = m ((c : Thread nD τ).loc main_arg0) := by
  show StableHlo.after (List.flatten [hostOps0]) (fun b => m (c, b)) (Proc.devRef .tc main_arg0) = _
  refine (StableHlo.after_of_forall_not_mem _ _ ?_).trans rfl
  intro op hop
  simp only [List.flatten_cons, List.flatten_nil, List.append_nil, hostOps0, List.mem_cons, List.mem_nil_iff, or_false] at hop
  subst hop
  exact fun h => StableHlo.devRef_ne_of_ne (by decide) (Finset.mem_singleton.mp h)

/-- After the run the argument array is as launched. -/
theorem kept_arg0 (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) := by
  refine ((h c).2 main_arg0 (Pipeline.mem_restRefs_of main_arg0 (by decide) (by decide))).trans ?_
  unfold Pipeline.afterTail₀
  rw [after_tail_arg0, Pipeline.withArrays_of_ne spec0 c _ _ main_arg0 (fun w => by fin_cases w <;> decide)]
  exact V_main_arg0 m c

/-- THE FRAME: every weakly fair execution terminates without a fault and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

end Cert.KernelIdeal.Fr

end
-- ==== Proof.LibNaryThree.lean ====
/-
  A host operation over a literal family of THREE operand buffers (a concatenation or a stack of three arrays), read
  at its result: the operation's function applied to the three operands' contents, each read at its own reference.
  Holds at any topology, signature and element values; the general statement for a family of any length is the
  library's `StableHlo.nary_result`, of which this is the case of a literal `![x, a, b]` with the family spelt out, the
  form a rewriting pass over a straight line of host operations can use.
-/
import Idealize.ShloMosaic.Lib.StableHlo.Run

namespace Cert.LibNaryThree

open Idealize.ShloMosaic

open Idealize.ShloMosaic.StableHlo in
/-- What a three-operand operation leaves at its result buffer. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

end Cert.LibNaryThree
-- ==== Proof.HostTail.lean ====
/-
  The two results of the program that depend on no input: the table of patch positions and the mask of ones.

  A frame of 3136 = 4 · 28 · 28 patches is numbered row-major; patch `p` sits in temporal slice `p / 784`,
  row `(p % 784) / 28` and column `(p % 784) % 28`. Both programs compute the three coordinates with the
  floor-division and the sign-adjusted remainder of 32-bit integers, written out below operation by
  operation exactly as the host computes them (truncating division, then the correction where the signs of
  dividend and divisor differ and the remainder is not zero), stack them on a new last axis and repeat
  the table over the batch of 32. The mask is the constant one at every (batch, patch) position.
-/
import Idealize.ShloMosaic.PureOps
import Idealize.ShloMosaic.Lib.StableHlo.Run
import proofs.«169261_j75084618268853_2_alg».proof.Proof.LibNaryThree

noncomputable section

namespace Cert.HostTail

open Idealize.ShloMosaic

variable {F : FTy → Type} [FloatOps F]

/-! ## Shapes -/

abbrev S_ : Shape := ⟨0, ![]⟩
abbrev S3136 : Shape := ⟨1, ![3136]⟩
abbrev S3136x1 : Shape := ⟨2, ![3136, 1]⟩
abbrev S3136x3 : Shape := ⟨2, ![3136, 3]⟩
abbrev S1x3136x3 : Shape := ⟨3, ![1, 3136, 3]⟩
abbrev S32x3136x3 : Shape := ⟨3, ![32, 3136, 3]⟩
abbrev S32x3136 : Shape := ⟨2, ![32, 3136]⟩

theorem bcast_S_S3136 : S_.BroadcastsInDim S3136 (![] : Fin 0 → Fin S3136.rank) := by decide
theorem bcast_S3136_S3136x1_0 : S3136.BroadcastsInDim S3136x1 (![0] : Fin 1 → Fin S3136x1.rank) := by decide
theorem concatenates_3 : Shape.Concatenates [S3136x1, S3136x1, S3136x1] S3136x3 1 := by decide
theorem bcast_S3136x3_S1x3136x3_1_2 : S3136x3.BroadcastsInDim S1x3136x3 (![1, 2] : Fin 2 → Fin S1x3136x3.rank) := by decide
theorem bcast_S1x3136x3_S32x3136x3_0_1_2 : S1x3136x3.BroadcastsInDim S32x3136x3 (![0, 1, 2] : Fin 3 → Fin S32x3136x3.rank) := by decide
theorem bcast_S_S32x3136 : S_.BroadcastsInDim S32x3136 (![] : Fin 0 → Fin S32x3136.rank) := by decide

/-! ## The integer arithmetic -/

/-- A rank-zero value repeated at each of the 3136 positions. -/
def splat {α : Type} (c : S_.Idx → α) : S3136.Idx → α := broadcastInDim S3136 ![] bcast_S_S3136 c

/-- Floor division of each element of `x` by the scalar `c`: the truncated quotient `q`, less one where the
    signs of `x` and `c` differ and the truncated remainder is not zero. -/
def floorDiv (x : IVec S3136 32) (c : IVec S_ 32) : IVec S3136 32 :=
  select
    (andi (cmpi .ne (signi x) (splat (signi c)))
          (cmpi .ne (Host.remsi x (splat c)) (splat (constantI S_ 32 0#32))))
    (subi (Host.divsi x (splat c)) (splat (constantI S_ 32 1#32)))
    (Host.divsi x (splat c))

/-- The divisor a remainder is taken by: `c`, or one where `c` is zero. -/
def divisor (c : IVec S_ 32) : IVec S_ 32 :=
  select (cmpi .eq c (constantI S_ 32 0#32)) (constantI S_ 32 1#32) c

/-- The remainder of each element of `x` by the scalar `c` with the sign of the divisor: the truncated
    remainder `r`, plus the divisor where `r` is not zero and its sign differs from the divisor's. -/
def floorRem (x : IVec S3136 32) (c : IVec S_ 32) : IVec S3136 32 :=
  select
    (andi (cmpi .ne (cmpi .slt (Host.remsi x (splat (divisor c))) (splat (constantI S_ 32 0#32)))
                    (splat (cmpi .slt (divisor c) (constantI S_ 32 0#32))))
          (cmpi .ne (Host.remsi x (splat (divisor c))) (splat (constantI S_ 32 0#32))))
    (addi (Host.remsi x (splat (divisor c))) (splat (divisor c)))
    (Host.remsi x (splat (divisor c)))

/-! ## The positions -/

/-- The patch numbers `0, 1, …, 3135`. -/
def patch : IVec S3136 32 := iotaInDim S3136 32 0

/-- A patch's number within its temporal slice: `p % 784`. -/
def inSlice : IVec S3136 32 := floorRem patch (constantI S_ 32 784#32)

/-- The temporal slice `p / 784`, the row `(p % 784) / 28` and the column `(p % 784) % 28` of every patch. -/
def slice : IVec S3136 32 := floorDiv patch (constantI S_ 32 784#32)
def row : IVec S3136 32 := floorDiv inSlice (constantI S_ 32 28#32)
def col : IVec S3136 32 := floorRem inSlice (constantI S_ 32 28#32)

/-- A vector of 3136 as a column. -/
def column (x : IVec S3136 32) : IVec S3136x1 32 := broadcastInDim S3136x1 ![0] bcast_S3136_S3136x1_0 x

/-- The table `(slice, row, column)` of the 3136 patches. -/
def table : IVec S3136x3 32 :=
  concatenate S3136x3 1 [⟨S3136x1, column slice⟩, ⟨S3136x1, column row⟩, ⟨S3136x1, column col⟩] concatenates_3

/-- The table of positions, the same for each of the 32 elements of the batch. -/
def positions : (⟨⟨3, ![32, 3136, 3]⟩, .i32⟩ : BufTy).Contents (Elt F) :=
  broadcastInDim S32x3136x3 ![0, 1, 2] bcast_S1x3136x3_S32x3136x3_0_1_2
    (broadcastInDim S1x3136x3 ![1, 2] bcast_S3136x3_S1x3136x3_1_2 table)

/-- The mask: one at every (batch, patch) position. -/
def mask : (⟨⟨2, ![32, 3136]⟩, .f32⟩ : BufTy).Contents (Elt F) :=
  broadcastInDim S32x3136 ![] bcast_S_S32x3136 (constant S_ .f32 0x3F800000#32)

end Cert.HostTail

end
-- ==== Proof.KTail.lean ====
/-
  What the ninety host operations after the kernel's region leave in four buffers.

  After the region the program reshapes the patch array [32, 4, 28, 28, 768] to [32, 3136, 768]; computes, from no
  input at all, the table of patch positions (the patch numbers 0 … 3135, their floor quotient by 784, and of their
  remainder by 784 the floor quotient and the remainder by 28, stacked on a new last axis and repeated over the batch of
  32); and fills the mask with ones.  Run in order from ANY contents of the buffers:

  * the reshaped array's buffer holds the row-major recast of what the region's result buffer held (nothing after the
    reshape writes either of the two);
  * the positions' buffer and the mask's buffer hold the two closed terms of HostTail.lean, which do not mention the
    starting contents;
  * the argument's buffer is written by none of the ninety and holds what it held.

  Each is the fold of the operations' results read at one buffer: an operation read at its own result buffer is its
  function of its operands' contents, and read at any other buffer it is what was there before.
-/
import proofs.«169261_j75084618268853_2_alg».proof.Proof.Gen.KernelIdeal.Launch
import Idealize.ShloMosaic.Lib.StableHlo.Run
import proofs.«169261_j75084618268853_2_alg».proof.Proof.HostTail

noncomputable section

namespace Cert.KernelIdeal.KTail

open Cert.KernelIdeal Cert.KernelIdeal.Gen Idealize.ShloMosaic Idealize.ShloMosaic.TcCoe Idealize.SL.Sem
  Idealize.ShloMosaic.StableHlo

variable {F : FTy → Type} [FloatOps F]

/-- The nine stretches of host operations after the region, in order: @main's own and those of the four calls of the
    floor-division and remainder functions. -/
abbrev tailOps : List (List (HloOp τ sig (Elt F))) :=
  [hostOps1, hostOps1_1, hostOps1_2, hostOps1_3, hostOps1_4, hostOps1_5, hostOps1_6, hostOps1_7, hostOps1_8]

/-! Each proof below writes the nine stretches as one list, then reads the fold at one buffer, one operation at a time: at its
own result buffer an operation is its function of its operands' contents, at another buffer what was there (the two told
apart as references); the three-operand stacking reads each operand's contents at its own reference.  What is left is an
equation between pure terms, true by unfolding definitions. -/

set_option maxRecDepth 8192 in
set_option maxHeartbeats 1000000 in
/-- None of the ninety operations writes the argument's buffer. -/
theorem tail_arg0 (W : Valuation τ sig (Elt F)) :
    StableHlo.after (tailOps (F := F)).flatten W (Proc.devRef .tc main_arg0) = W (Proc.devRef .tc main_arg0) := by
  delta tailOps hostOps1 hostOps1_1 hostOps1_2 hostOps1_3 hostOps1_4 hostOps1_5 hostOps1_6 hostOps1_7 hostOps1_8
  dsimp only [List.flatten_cons, List.flatten_nil, List.cons_append, List.nil_append, after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']

set_option maxRecDepth 8192 in
set_option maxHeartbeats 1000000 in
/-- The first operation recasts the region's result row-major; none of the others writes either buffer. -/
theorem tail_v2 (W : Valuation τ sig (Elt F)) :
    StableHlo.after (tailOps (F := F)).flatten W (Proc.devRef .tc main_v2)
      = shapeCast S32x3136x768 (W (Proc.devRef .tc main_v1)) shapeCasts_S32x4x28x28x768_S32x3136x768 := by
  delta tailOps hostOps1 hostOps1_1 hostOps1_2 hostOps1_3 hostOps1_4 hostOps1_5 hostOps1_6 hostOps1_7 hostOps1_8
  dsimp only [List.flatten_cons, List.flatten_nil, List.cons_append, List.nil_append, after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']
  rfl

-- the integer and shape operations are kept folded: the two sides apply the same operations to the same operands, and the
-- equation never looks inside them
attribute [local irreducible] Host.divsi Host.remsi select andi cmpi subi addi signi broadcastInDim concatenate iotaInDim
  constantI constant in
set_option maxRecDepth 8192 in
set_option maxHeartbeats 1000000 in
/-- The positions' buffer holds the table of positions, whatever the buffers held before. -/
theorem tail_v13 (W : Valuation τ sig (Elt F)) :
    StableHlo.after (tailOps (F := F)).flatten W (Proc.devRef .tc main_v13) = Cert.HostTail.positions (F := F) := by
  delta tailOps hostOps1 hostOps1_1 hostOps1_2 hostOps1_3 hostOps1_4 hostOps1_5 hostOps1_6 hostOps1_7 hostOps1_8
  dsimp only [List.flatten_cons, List.flatten_nil, List.cons_append, List.nil_append, after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']
  rfl

attribute [local irreducible] broadcastInDim constant in
set_option maxRecDepth 8192 in
set_option maxHeartbeats 1000000 in
/-- The mask's buffer holds the mask of ones, whatever the buffers held before. -/
theorem tail_v14 (W : Valuation τ sig (Elt F)) :
    StableHlo.after (tailOps (F := F)).flatten W (Proc.devRef .tc main_v14) = Cert.HostTail.mask (F := F) := by
  delta tailOps hostOps1 hostOps1_1 hostOps1_2 hostOps1_3 hostOps1_4 hostOps1_5 hostOps1_6 hostOps1_7 hostOps1_8
  dsimp only [List.flatten_cons, List.flatten_nil, List.cons_append, List.nil_append, after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']
  rfl

end Cert.KernelIdeal.KTail

end
-- ==== Proof.KPost.lean ====
/-
  The patch-extraction program's results. After the run: the patch rows are the patch array of the reshaped pixel
  array, read row-major as [32, 3136, 768] (the reshape after the region); the positions and the mask are the closed
  terms the host operations after the region compute from constants alone; the argument array is as launched.
-/
import proofs.«169261_j75084618268853_2_alg».proof.Proof.KValue
import proofs.«169261_j75084618268853_2_alg».proof.Proof.KArg
import proofs.«169261_j75084618268853_2_alg».proof.Proof.KTail

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Relayout

variable {F : FTy → Type} [FloatOps F]

variable (m : (ℓ : Loc nD τ sig) → Buf (Elt F) ℓ) (ρ : Dev nD → PrngReg)

/-- The region finds the pixel array reshaped to [32, 4, 3, 28, 16, 28, 16]. -/
theorem V_main_v0 (c : Dev nD) :
    (V m c main_v0 : S32x4x3x28x16x28x16.Idx → Elt F .f32)
      = shapeCast S32x4x3x28x16x28x16 (m ((c : Thread nD τ).loc main_arg0)) shapeCasts_S32x4x3x448x448_S32x4x3x28x16x28x16 := by
  show StableHlo.after (List.flatten [hostOps0]) (fun b => m (c, b)) (Proc.devRef .tc main_v0) = _
  simp only [List.flatten_cons, List.flatten_nil, List.append_nil, hostOps0]
  after_results
  rfl

/-- The patch rows after the run. -/
theorem post_v2 (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v2)
      = shapeCast S32x3136x768 (patchOf (shapeCast S32x4x3x28x16x28x16 (m ((c : Thread nD τ).loc main_arg0)) shapeCasts_S32x4x3x448x448_S32x4x3x28x16x28x16))
          shapeCasts_S32x4x28x28x768_S32x3136x768 := by
  refine ((h c).2 main_v2 (Pipeline.mem_restRefs_of main_v2 (by decide) (by decide))).trans ?_
  unfold Pipeline.afterTail₀
  refine (KTail.tail_v2 _).trans ?_
  have e : (Pipeline.withArrays spec0 c (V0 m c) (fun w => (dats m 0 c).arrAt w cfg0.N) (Proc.devRef .tc main_v1)
        : S32x4x28x28x768.Idx → Elt F .f32)
      = patchOf (shapeCast S32x4x3x28x16x28x16 (m ((c : Thread nD τ).loc main_arg0)) shapeCasts_S32x4x3x448x448_S32x4x3x28x16x28x16) :=
    (Pipeline.withArrays_arr spec0 launch0.win.arr_inj c _ _ 1).trans ((final m c).trans (by unfold patches; rw [V_main_v0]))
  exact congrArg (fun X : S32x4x28x28x768.Idx → Elt F .f32 => shapeCast S32x3136x768 X shapeCasts_S32x4x28x28x768_S32x3136x768) e

/-- The positions after the run. -/
theorem post_v13 (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v13) = Cert.HostTail.positions (F := F) := by
  refine ((h c).2 main_v13 (Pipeline.mem_restRefs_of main_v13 (by decide) (by decide))).trans ?_
  unfold Pipeline.afterTail₀
  exact KTail.tail_v13 _

/-- The mask after the run. -/
theorem post_v14 (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v14) = Cert.HostTail.mask (F := F) := by
  refine ((h c).2 main_v14 (Pipeline.mem_restRefs_of main_v14 (by decide) (by decide))).trans ?_
  unfold Pipeline.afterTail₀
  exact KTail.tail_v14 _

/-- THE RUN, READ: every weakly fair execution terminates with the three results at their terms of the argument
    array and the argument array unchanged. -/
theorem run : θ_run defs (onTc (τ := τ) (main (F := F))) ⟨m, fun _ => 0, ρ⟩ fun r => ∀ c : Dev nD,
      r.2.mem ((c.tc : Thread nD τ).loc main_v2)
        = shapeCast S32x3136x768 (patchOf (shapeCast S32x4x3x28x16x28x16 (m ((c : Thread nD τ).loc main_arg0)) shapeCasts_S32x4x3x448x448_S32x4x3x28x16x28x16))
            shapeCasts_S32x4x28x28x768_S32x3136x768
      ∧ r.2.mem ((c.tc : Thread nD τ).loc main_v13) = Cert.HostTail.positions (F := F)
      ∧ r.2.mem ((c.tc : Thread nD τ).loc main_v14) = Cert.HostTail.mask (F := F)
      ∧ r.2.mem ((c.tc : Thread nD τ).loc main_arg0) = m ((c.tc : Thread nD τ).loc main_arg0) :=
  (θ_run defs _ _).mono (fun r h c => ⟨post_v2 m r h c, post_v13 m r h c, post_v14 m r h c, kept_arg0 m r h c⟩) (run_main m ρ)

end Cert.KernelIdeal.Fr

end
-- ==== Proof.RefRun.lean ====
/-
  The reference program run by hand.

  The reference is a straight line of host operations once its four calls (two floor divisions, two
  remainders of the patch numbers) are unfolded at their call sites: ninety-two operations, each writing a
  buffer of its own. Every weakly fair execution therefore terminates with each buffer at the composition of
  the operations that feed it. Read at the three results: the patches are the argument regrouped into
  16 × 16 tiles — a change of shape, a permutation of axes, a change of shape —, the positions and the mask
  are the two constants of `HostTail`, and the argument is left as it was.
-/
import proofs.«169261_j75084618268853_2_alg».proof.Proof.Gen.ReferenceIdeal
import Idealize.ShloMosaic.Lib.StableHlo.Run
import proofs.«169261_j75084618268853_2_alg».proof.Proof.HostTail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's ninety-two operations in order, each call replaced by the callee's operations over that call's
    buffers: the regrouping of the argument (3), the patch numbers and the first divisor (2), a floor division (17),
    a divisor (1), a remainder (21), a divisor (1), a floor division (17), a divisor (1), a remainder (21), and the
    stacking and repetition of the three coordinates followed by the mask (8). -/
abbrev ops : List (HloOp τ sig (Elt F)) :=
  [ StableHlo.reshape main_arg0 main_v0 rfl shapeCasts_S32x4x3x448x448_S32x4x3x28x16x28x16,
    StableHlo.unary main_v0 main_v1 ((transpose S32x4x28x28x3x16x16 [0, 1, 3, 5, 2, 4, 6] · transposes_S32x4x3x28x16x28x16_S32x4x28x28x3x16x16_0_1_3_5_2_4_6) : (⟨S32x4x3x28x16x28x16, .f32⟩ : BufTy).Contents (Elt F) → (⟨S32x4x28x28x3x16x16, .f32⟩ : BufTy).Contents (Elt F)),
    StableHlo.reshape main_v1 main_v2 rfl shapeCasts_S32x4x28x28x3x16x16_S32x3136x768,
    StableHlo.nullary main_v3 (iotaInDim S3136 32 0),
    StableHlo.nullary main_c (constantI S_ 32 784#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S3136, .i32⟩) (broadcastInDim S3136 ![] bcast_S_S3136),
    StableHlo.TRef.binary (.of main_v3 : StableHlo.TRef sig ⟨S3136, .i32⟩) (.of main_call0_v1 : StableHlo.TRef sig ⟨S3136, .i32⟩) (.of main_call0_v2 : StableHlo.TRef sig ⟨S3136, .i32⟩) Host.divsi,
    StableHlo.TRef.unary (.of main_v3 : StableHlo.TRef sig ⟨S3136, .i32⟩) (.of main_call0_v3 : StableHlo.TRef sig ⟨S3136, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S3136, .i32⟩) (broadcastInDim S3136 ![] bcast_S_S3136),
    StableHlo.TRef.binary (.of main_call0_v3 : StableHlo.TRef sig ⟨S3136, .i32⟩) (.of main_call0_v5 : StableHlo.TRef sig ⟨S3136, .i32⟩) (.of main_call0_v6 : StableHlo.TRef sig ⟨S3136, .i1⟩) (cmpi .ne),
    StableHlo.TRef.unary (.of main_call0_v0 : StableHlo.TRef sig ⟨S_, .i32⟩) (.of main_call0_v7 : StableHlo.TRef sig ⟨S3136, .i32⟩) (broadcastInDim S3136 ![] bcast_S_S3136),
    StableHlo.TRef.binary (.of main_v3 : StableHlo.TRef sig ⟨S3136, .i32⟩) (.of main_call0_v7 : StableHlo.TRef sig ⟨S3136, .i32⟩) (.of main_call0_v8 : StableHlo.TRef sig ⟨S3136, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S3136, .i32⟩) (broadcastInDim S3136 ![] bcast_S_S3136),
    StableHlo.TRef.binary (.of main_call0_v8 : StableHlo.TRef sig ⟨S3136, .i32⟩) (.of main_call0_v9 : StableHlo.TRef sig ⟨S3136, .i32⟩) (.of main_call0_v10 : StableHlo.TRef sig ⟨S3136, .i1⟩) (cmpi .ne),
    StableHlo.TRef.binary (.of main_call0_v6 : StableHlo.TRef sig ⟨S3136, .i1⟩) (.of main_call0_v10 : StableHlo.TRef sig ⟨S3136, .i1⟩) (.of main_call0_v11 : StableHlo.TRef sig ⟨S3136, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S3136, .i32⟩) (broadcastInDim S3136 ![] bcast_S_S3136),
    StableHlo.TRef.binary (.of main_call0_v2 : StableHlo.TRef sig ⟨S3136, .i32⟩) (.of main_call0_v12 : StableHlo.TRef sig ⟨S3136, .i32⟩) (.of main_call0_v13 : StableHlo.TRef sig ⟨S3136, .i32⟩) subi,
    StableHlo.TRef.ternary (.of main_call0_v11 : StableHlo.TRef sig ⟨S3136, .i1⟩) (.of main_call0_v13 : StableHlo.TRef sig ⟨S3136, .i32⟩) (.of main_call0_v2 : StableHlo.TRef sig ⟨S3136, .i32⟩) (.of main_v4 : StableHlo.TRef sig ⟨S3136, .i32⟩) select,
    StableHlo.nullary main_c_0 (constantI S_ 32 784#32),
    StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S3136, .i32⟩) (broadcastInDim S3136 ![] bcast_S_S3136),
    StableHlo.TRef.binary (.of main_v3 : StableHlo.TRef sig ⟨S3136, .i32⟩) (.of main_call1_v3 : StableHlo.TRef sig ⟨S3136, .i32⟩) (.of main_call1_v4 : StableHlo.TRef sig ⟨S3136, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S3136, .i32⟩) (broadcastInDim S3136 ![] bcast_S_S3136),
    StableHlo.TRef.binary (.of main_call1_v4 : StableHlo.TRef sig ⟨S3136, .i32⟩) (.of main_call1_v5 : StableHlo.TRef sig ⟨S3136, .i32⟩) (.of main_call1_v6 : StableHlo.TRef sig ⟨S3136, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S3136, .i32⟩) (broadcastInDim S3136 ![] bcast_S_S3136),
    StableHlo.TRef.binary (.of main_call1_v4 : StableHlo.TRef sig ⟨S3136, .i32⟩) (.of main_call1_v7 : StableHlo.TRef sig ⟨S3136, .i32⟩) (.of main_call1_v8 : StableHlo.TRef sig ⟨S3136, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S3136, .i1⟩) (broadcastInDim S3136 ![] bcast_S_S3136),
    StableHlo.TRef.binary (.of main_call1_v8 : StableHlo.TRef sig ⟨S3136, .i1⟩) (.of main_call1_v10 : StableHlo.TRef sig ⟨S3136, .i1⟩) (.of main_call1_v11 : StableHlo.TRef sig ⟨S3136, .i1⟩) (cmpi .ne),
    StableHlo.TRef.binary (.of main_call1_v11 : StableHlo.TRef sig ⟨S3136, .i1⟩) (.of main_call1_v6 : StableHlo.TRef sig ⟨S3136, .i1⟩) (.of main_call1_v12 : StableHlo.TRef sig ⟨S3136, .i1⟩) andi,
    StableHlo.TRef.unary main_call1_call0.v0 (.of main_call1_v13 : StableHlo.TRef sig ⟨S3136, .i32⟩) (broadcastInDim S3136 ![] bcast_S_S3136),
    StableHlo.TRef.binary (.of main_call1_v4 : StableHlo.TRef sig ⟨S3136, .i32⟩) (.of main_call1_v13 : StableHlo.TRef sig ⟨S3136, .i32⟩) (.of main_call1_v14 : StableHlo.TRef sig ⟨S3136, .i32⟩) addi,
    StableHlo.TRef.ternary (.of main_call1_v12 : StableHlo.TRef sig ⟨S3136, .i1⟩) (.of main_call1_v14 : StableHlo.TRef sig ⟨S3136, .i32⟩) (.of main_call1_v4 : StableHlo.TRef sig ⟨S3136, .i32⟩) (.of main_v5 : StableHlo.TRef sig ⟨S3136, .i32⟩) select,
    StableHlo.nullary main_c_1 (constantI S_ 32 28#32),
    StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S3136, .i32⟩) (broadcastInDim S3136 ![] bcast_S_S3136),
    StableHlo.TRef.binary (.of main_v5 : StableHlo.TRef sig ⟨S3136, .i32⟩) (.of main_call2_v1 : StableHlo.TRef sig ⟨S3136, .i32⟩) (.of main_call2_v2 : StableHlo.TRef sig ⟨S3136, .i32⟩) Host.divsi,
    StableHlo.TRef.unary (.of main_v5 : StableHlo.TRef sig ⟨S3136, .i32⟩) (.of main_call2_v3 : StableHlo.TRef sig ⟨S3136, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S3136, .i32⟩) (broadcastInDim S3136 ![] bcast_S_S3136),
    StableHlo.TRef.binary (.of main_call2_v3 : StableHlo.TRef sig ⟨S3136, .i32⟩) (.of main_call2_v5 : StableHlo.TRef sig ⟨S3136, .i32⟩) (.of main_call2_v6 : StableHlo.TRef sig ⟨S3136, .i1⟩) (cmpi .ne),
    StableHlo.TRef.unary (.of main_call2_v0 : StableHlo.TRef sig ⟨S_, .i32⟩) (.of main_call2_v7 : StableHlo.TRef sig ⟨S3136, .i32⟩) (broadcastInDim S3136 ![] bcast_S_S3136),
    StableHlo.TRef.binary (.of main_v5 : StableHlo.TRef sig ⟨S3136, .i32⟩) (.of main_call2_v7 : StableHlo.TRef sig ⟨S3136, .i32⟩) (.of main_call2_v8 : StableHlo.TRef sig ⟨S3136, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S3136, .i32⟩) (broadcastInDim S3136 ![] bcast_S_S3136),
    StableHlo.TRef.binary (.of main_call2_v8 : StableHlo.TRef sig ⟨S3136, .i32⟩) (.of main_call2_v9 : StableHlo.TRef sig ⟨S3136, .i32⟩) (.of main_call2_v10 : StableHlo.TRef sig ⟨S3136, .i1⟩) (cmpi .ne),
    StableHlo.TRef.binary (.of main_call2_v6 : StableHlo.TRef sig ⟨S3136, .i1⟩) (.of main_call2_v10 : StableHlo.TRef sig ⟨S3136, .i1⟩) (.of main_call2_v11 : StableHlo.TRef sig ⟨S3136, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S3136, .i32⟩) (broadcastInDim S3136 ![] bcast_S_S3136),
    StableHlo.TRef.binary (.of main_call2_v2 : StableHlo.TRef sig ⟨S3136, .i32⟩) (.of main_call2_v12 : StableHlo.TRef sig ⟨S3136, .i32⟩) (.of main_call2_v13 : StableHlo.TRef sig ⟨S3136, .i32⟩) subi,
    StableHlo.TRef.ternary (.of main_call2_v11 : StableHlo.TRef sig ⟨S3136, .i1⟩) (.of main_call2_v13 : StableHlo.TRef sig ⟨S3136, .i32⟩) (.of main_call2_v2 : StableHlo.TRef sig ⟨S3136, .i32⟩) (.of main_v6 : StableHlo.TRef sig ⟨S3136, .i32⟩) select,
    StableHlo.nullary main_c_2 (constantI S_ 32 28#32),
    StableHlo.TRef.unary (.of main_c_2 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary main_call3_call0.v0 (.of main_call3_v3 : StableHlo.TRef sig ⟨S3136, .i32⟩) (broadcastInDim S3136 ![] bcast_S_S3136),
    StableHlo.TRef.binary (.of main_v5 : StableHlo.TRef sig ⟨S3136, .i32⟩) (.of main_call3_v3 : StableHlo.TRef sig ⟨S3136, .i32⟩) (.of main_call3_v4 : StableHlo.TRef sig ⟨S3136, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S3136, .i32⟩) (broadcastInDim S3136 ![] bcast_S_S3136),
    StableHlo.TRef.binary (.of main_call3_v4 : StableHlo.TRef sig ⟨S3136, .i32⟩) (.of main_call3_v5 : StableHlo.TRef sig ⟨S3136, .i32⟩) (.of main_call3_v6 : StableHlo.TRef sig ⟨S3136, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S3136, .i32⟩) (broadcastInDim S3136 ![] bcast_S_S3136),
    StableHlo.TRef.binary (.of main_call3_v4 : StableHlo.TRef sig ⟨S3136, .i32⟩) (.of main_call3_v7 : StableHlo.TRef sig ⟨S3136, .i32⟩) (.of main_call3_v8 : StableHlo.TRef sig ⟨S3136, .i1⟩) (cmpi .slt),
    StableHlo.TRef.nullary (.of main_call3_c_3 : StableHlo.TRef sig ⟨S_, .i32⟩) (constantI S_ 32 0#32),
    StableHlo.TRef.binary main_call3_call0.v0 (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S3136, .i1⟩) (broadcastInDim S3136 ![] bcast_S_S3136),
    StableHlo.TRef.binary (.of main_call3_v8 : StableHlo.TRef sig ⟨S3136, .i1⟩) (.of main_call3_v10 : StableHlo.TRef sig ⟨S3136, .i1⟩) (.of main_call3_v11 : StableHlo.TRef sig ⟨S3136, .i1⟩) (cmpi .ne),
    StableHlo.TRef.binary (.of main_call3_v11 : StableHlo.TRef sig ⟨S3136, .i1⟩) (.of main_call3_v6 : StableHlo.TRef sig ⟨S3136, .i1⟩) (.of main_call3_v12 : StableHlo.TRef sig ⟨S3136, .i1⟩) andi,
    StableHlo.TRef.unary main_call3_call0.v0 (.of main_call3_v13 : StableHlo.TRef sig ⟨S3136, .i32⟩) (broadcastInDim S3136 ![] bcast_S_S3136),
    StableHlo.TRef.binary (.of main_call3_v4 : StableHlo.TRef sig ⟨S3136, .i32⟩) (.of main_call3_v13 : StableHlo.TRef sig ⟨S3136, .i32⟩) (.of main_call3_v14 : StableHlo.TRef sig ⟨S3136, .i32⟩) addi,
    StableHlo.TRef.ternary (.of main_call3_v12 : StableHlo.TRef sig ⟨S3136, .i1⟩) (.of main_call3_v14 : StableHlo.TRef sig ⟨S3136, .i32⟩) (.of main_call3_v4 : StableHlo.TRef sig ⟨S3136, .i32⟩) (.of main_v7 : StableHlo.TRef sig ⟨S3136, .i32⟩) select,
    StableHlo.unary main_v4 main_v8 (broadcastInDim S3136x1 ![0] bcast_S3136_S3136x1_0 : (⟨S3136, .i32⟩ : BufTy).Contents (Elt F) → (⟨S3136x1, .i32⟩ : BufTy).Contents (Elt F)),
    StableHlo.unary main_v6 main_v9 (broadcastInDim S3136x1 ![0] bcast_S3136_S3136x1_0 : (⟨S3136, .i32⟩ : BufTy).Contents (Elt F) → (⟨S3136x1, .i32⟩ : BufTy).Contents (Elt F)),
    StableHlo.unary main_v7 main_v10 (broadcastInDim S3136x1 ![0] bcast_S3136_S3136x1_0 : (⟨S3136, .i32⟩ : BufTy).Contents (Elt F) → (⟨S3136x1, .i32⟩ : BufTy).Contents (Elt F)),
    StableHlo.nary ![main_v8, main_v9, main_v10] main_v11 (fun u => concatenate S3136x3 1 [⟨S3136x1, u 0⟩, ⟨S3136x1, u 1⟩, ⟨S3136x1, u 2⟩] concatenates_S3136x1_S3136x1_S3136x1_S3136x3_d1),
    StableHlo.unary main_v11 main_v12 (broadcastInDim S1x3136x3 ![1, 2] bcast_S3136x3_S1x3136x3_1_2 : (⟨S3136x3, .i32⟩ : BufTy).Contents (Elt F) → (⟨S1x3136x3, .i32⟩ : BufTy).Contents (Elt F)),
    StableHlo.unary main_v12 main_v13 (broadcastInDim S32x3136x3 ![0, 1, 2] bcast_S1x3136x3_S32x3136x3_0_1_2 : (⟨S1x3136x3, .i32⟩ : BufTy).Contents (Elt F) → (⟨S32x3136x3, .i32⟩ : BufTy).Contents (Elt F)),
    StableHlo.nullary main_cst (constant S_ .f32 0x3F800000#32),
    StableHlo.unary main_cst main_v14 (broadcastInDim S32x3136 ![] bcast_S_S32x3136 : (⟨S_, .f32⟩ : BufTy).Contents (Elt F) → (⟨S32x3136, .f32⟩ : BufTy).Contents (Elt F)) ]

-- a chain of ninety-two sequenced steps: re-associating it is one step deep per operation
set_option maxRecDepth 4096 in
set_option maxHeartbeats 1600000 in
/-- The program is that straight line: the callees' definitions unfolded at their calls and the call records at
    their fields, both sides are one chain of steps once sequencing is re-associated. -/
theorem main_eq (c : Dev nD) : main (F := F) c = seq ops := by
  simp only [main, fn_floor_divide.body, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., unary_bufs_sub .., nary_bufs_sub .., unary_bufs_sub .., unary_bufs_sub .., nullary_bufs_sub .., unary_bufs_sub ..⟩

/-! Each proof below reads the fold of the ninety-two operations at one buffer, one operation at a time: at its own
result buffer an operation is its function of its operands' contents, at another buffer what was there (the two told
apart as references); the three-operand stacking reads each operand's contents at its own reference. What is left is
an equation between pure terms, true by unfolding definitions. -/

set_option maxRecDepth 8192 in
set_option maxHeartbeats 1000000 in
/-- None of the operations writes the argument's buffer. -/
theorem out_arg0 (V : Valuation τ sig (Elt F)) :
    after ops V (Proc.devRef .tc main_arg0) = V (Proc.devRef .tc main_arg0) := by
  delta ops
  dsimp only [after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']

-- the changes of shape and the permutation are kept folded: the two sides apply the same three to the same operand
attribute [local irreducible] shapeCast transpose in
set_option maxRecDepth 8192 in
set_option maxHeartbeats 1000000 in
/-- The first three operations regroup the argument into tiles; none of the others writes any of their buffers. -/
theorem out_v2 (V : Valuation τ sig (Elt F)) :
    after ops V (Proc.devRef .tc main_v2)
      = shapeCast S32x3136x768 (transpose S32x4x28x28x3x16x16 [0, 1, 3, 5, 2, 4, 6] (shapeCast S32x4x3x28x16x28x16 (V (Proc.devRef .tc main_arg0)) shapeCasts_S32x4x3x448x448_S32x4x3x28x16x28x16) transposes_S32x4x3x28x16x28x16_S32x4x28x28x3x16x16_0_1_3_5_2_4_6) shapeCasts_S32x4x28x28x3x16x16_S32x3136x768 := by
  delta ops
  dsimp only [after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']
  rfl

-- the integer and shape operations are kept folded: the two sides apply the same operations to the same operands, and
-- the equation never looks inside them
attribute [local irreducible] Host.divsi Host.remsi select andi cmpi subi addi signi broadcastInDim concatenate iotaInDim
  constantI constant in
set_option maxRecDepth 8192 in
set_option maxHeartbeats 1000000 in
/-- The positions' buffer holds the table of positions, whatever the buffers held before. -/
theorem out_v13 (V : Valuation τ sig (Elt F)) :
    after ops V (Proc.devRef .tc main_v13) = Cert.HostTail.positions (F := F) := by
  delta ops
  dsimp only [after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']
  rfl

attribute [local irreducible] broadcastInDim constant in
set_option maxRecDepth 8192 in
set_option maxHeartbeats 1000000 in
/-- The mask's buffer holds the mask of ones, whatever the buffers held before. -/
theorem out_v14 (V : Valuation τ sig (Elt F)) :
    after ops V (Proc.devRef .tc main_v14) = Cert.HostTail.mask (F := F) := by
  delta ops
  dsimp only [after_cons, after_nil]
  simp (disch := decide) only [↓nullary_result', ↓unary_result', ↓binary_result', ↓ternary_result', ↓quaternary_result',
    ↓reshape_result', ↓Cert.LibNaryThree.nary3_result,
    ↓nullary_result_ne', ↓unary_result_ne', ↓binary_result_ne', ↓ternary_result_ne', ↓quaternary_result_ne',
    ↓reshape_result_ne', ↓nary_result_ne']
  rfl

/-- On every device, for any float values, from any memory with zero counters: every weakly fair execution of the
    program terminates with the patches at the argument regrouped into tiles, the positions and the mask at their
    constants, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = shapeCast S32x3136x768 (transpose S32x4x28x28x3x16x16 [0, 1, 3, 5, 2, 4, 6] (shapeCast S32x4x3x28x16x28x16 (m ((c.tc : Thread nD τ).loc main_arg0)) shapeCasts_S32x4x3x448x448_S32x4x3x28x16x28x16) transposes_S32x4x3x28x16x28x16_S32x4x28x28x3x16x16_0_1_3_5_2_4_6) shapeCasts_S32x4x28x28x3x16x16_S32x3136x768
      ∧ r.2.mem ((c.tc : Thread nD τ).loc main_v13) = Cert.HostTail.positions (F := F)
      ∧ r.2.mem ((c.tc : Thread nD τ).loc main_v14) = Cert.HostTail.mask (F := F)
      ∧ r.2.mem ((c.tc : Thread nD τ).loc main_arg0) = m ((c.tc : Thread nD τ).loc main_arg0) :=
  (θ_run defs _ _).mono (fun _ h c => ⟨(h c main_v2).trans (out_v2 _), (h c main_v13).trans (out_v13 _),
      (h c main_v14).trans (out_v14 _), (h c main_arg0).trans (out_arg0 _)⟩)
    (run_seq scopedRefs_eq scopedSems_eq defs main (fun _ => ops) main_eq (fun _ => ops_sub) m ρ)

end Cert.ReferenceIdeal.RefRun

end
-- ==== Proof.lean ====
/-
  Patch extraction ("patchify") against its plain reference, over the extended reals.

  Both programs turn pixel_values : f32[32, 4, 3, 448, 448] into patches : f32[32, 3136, 768], positions : i32[32, 3136, 3]
  and mask : f32[32, 3136]. Write a pixel's row as 16 r + pr and its column as 16 c + pc (28 x 28 patches of 16 x 16
  pixels per frame). Then patches[b, 784 f + 28 r + c, 256 ch + 16 pr + pc] = pixel_values[b, f, ch, 16 r + pr, 16 c + pc].

  The reference reshapes the pixels to [32, 4, 3, 28, 16, 28, 16], permutes the axes to [32, 4, 28, 28, 3, 16, 16] and
  reshapes to [32, 3136, 768]. The kernel reshapes the pixels the same way, and a grid of 32 x 4 points — one per batch
  and frame — copies, for each channel ch and row-in-patch pr, the slab (ch, :, pr, :, :) of the point's pixel block into
  the 16 feature columns starting at 16 (16 ch + pr) of the point's (28, 28, 768) patch block; a last reshape merges
  (frame, patch row, patch column) into the patch axis. Both are pure relayouts, so the results are equal entry by
  entry whatever the pixels hold (finiteness of the input is never used):
    * per point, the 48 stored pieces tile the patch block and each is a block of one function of the pixel block
      (Proof/PieceRelayout.lean, Proof/KValue.lean);
    * the 128 patch blocks tile the patch array, which is therefore one function of the reshaped pixel array
      (Proof/KValue.lean);
    * that function read row-major as [32, 3136, 768] is the permuted array read row-major (Proof/Relayout.lean).
  The positions and the mask are computed by the same host operations from constants alone in both programs
  (Proof/HostTail.lean names the two closed terms; Proof/RefRun.lean and Proof/KTail.lean read them off the two programs).

  The frames: the reference is a straight line of host operations (Proof/RefRun.lean). The kernel program is one reshape,
  the kernel's region, and ninety host operations; its run is the pipeline's launch theorem for a region followed by
  host operations (Proof/KRun.lean: the body; Proof/KFrame.lean: the pipeline's proof data and the body's obligation;
  Proof/KMain.lean: the launch; Proof/KArg.lean: the argument array is never written), once for the printed program at
  the word level (Proof/WRun.lean … Proof/WArg.lean) and once for its idealization. The ideal pass rewrote nothing, so
  the idealization is the program's own text and `preserves` is trivial.
-/
import proofs.«169261_j75084618268853_2_alg».proof.Defs
import proofs.«169261_j75084618268853_2_alg».proof.Proof.Gen.Kernel
import proofs.«169261_j75084618268853_2_alg».proof.Proof.Gen.KernelIdeal
import proofs.«169261_j75084618268853_2_alg».proof.Proof.Gen.ReferenceIdeal
import proofs.«169261_j75084618268853_2_alg».proof.Proof.Gen.Pre_finite_inputs
import proofs.«169261_j75084618268853_2_alg».proof.Proof.WArg
import proofs.«169261_j75084618268853_2_alg».proof.Proof.KPost
import proofs.«169261_j75084618268853_2_alg».proof.Proof.RefRun
import proofs.«169261_j75084618268853_2_alg».proof.Proof.Relayout
import Idealize.ShloMosaic.Adequacy
import Idealize.ShloMosaic.Init

noncomputable section

namespace Cert.Proof

open Idealize.ShloMosaic Idealize.ShloMosaic.TcCoe Idealize.SL.Sem

/-- The printed program runs and leaves its argument array unchanged. -/
theorem frame_p : Cert.frame_Kernel := fun m ρ _ => Cert.Kernel.Fr.frame (F := Bits) m ρ

/-- So does its idealization. -/
theorem frame_pi : Cert.frame_KernelIdeal := fun m ρ _ => Cert.KernelIdeal.Fr.frame (F := Ideal) m ρ

/-- And the reference: its run with the results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

/-- The ideal pass rewrote no operation. -/
theorem preserves : Cert.preserves_Kernel_KernelIdeal := trivial

/-- From memories agreeing on the pixels both programs end with the same patches (the relayout), positions and mask
    (the same closed terms). -/
theorem algebraic : Cert.algebraic_KernelIdeal_ReferenceIdeal := by
  intro m ρ m' ρ' _ hagree
  refine ⟨_, _, _, Cert.KernelIdeal.Fr.run (F := Ideal) m ρ, ?_⟩
  refine (θ_run Cert.ReferenceIdeal.defs _ _).mono (fun _ h c => ⟨?_, (h c).2.1, (h c).2.2.1, (h c).2.2.2⟩)
    (Cert.ReferenceIdeal.RefRun.run (F := Ideal) m' ρ')
  rw [(h c).1, hagree c]
  exact (Cert.Relayout.relayout _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
